-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) (main_arg2 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 20
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192x512, .bf16⟩
  | .hbm, ⟨4, _⟩ => ⟨S8192x512, .bf16⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x512, .f32⟩
  | .hbm, ⟨10, _⟩ => ⟨S_, .f32⟩
  | .hbm, ⟨11, _⟩ => ⟨S8192, .f32⟩
  | .hbm, ⟨12, _⟩ => ⟨S1x8192, .f32⟩
  | .hbm, ⟨13, _⟩ => ⟨S8192x1, .i32⟩
  | .hbm, ⟨14, _⟩ => ⟨S1x8192, .i32⟩
  | .hbm, ⟨15, _⟩ => ⟨S8192x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v48 : BitVec 1 := Scalar.cmpi .eq arg1 c7_i32
  let v49 : BitVec 32 := Scalar.extui v48
  let c0_i32_26 : BitVec 32 := 0#32
  let v50 : BitVec 1 := Scalar.cmpi .ne v49 c0_i32_26
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  reducesTo_S8192x512_S8192_d1 : S8192x512.ReducesTo [1] S8192
  h_S_ : 0 < S_.numel
  bcast_S8192_S8192x1_0 : S8192.BroadcastsInDim S8192x1 (![0] : Fin 1 → Fin S8192x1.rank)
  shapeCasts_S8192_S1x8192 : S8192.ShapeCasts S1x8192
  shapeCasts_S8192_S8192x1 : S8192.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reducesTo_S8192x1_S_d0_1 : S8192x1.ReducesTo [0, 1] S_
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .i32 = 32 ∨ (Rect.block (s := S1x8192) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 86
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S512x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .i1⟩
  | .hbm, ⟨33, _⟩ => ⟨S8192x8192, .f32⟩
  | .hbm, ⟨34, _⟩ => ⟨S_, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S8192x1, .i32⟩
  | .hbm, ⟨44, _⟩ => ⟨S1x8192, .i32⟩
  | .hbm, ⟨45, _⟩ => ⟨S8192x8192, .i32⟩
  | .hbm, ⟨46, _⟩ => ⟨S8192x8192, .i32⟩
  | .hbm, ⟨47, _⟩ => ⟨S8192x8192, .i1⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .i1⟩
  | .hbm, ⟨63, _⟩ => ⟨S_, .f32⟩
  | .hbm, ⟨64, _⟩ => ⟨S8192, .f32⟩
  | .hbm, ⟨65, _⟩ => ⟨S8192, .i1⟩
  | .hbm, ⟨66, _⟩ => ⟨S8192, .i1⟩
  | .hbm, ⟨67, _⟩ => ⟨S_, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S8192, .f32⟩
  | .hbm, ⟨72, _⟩ => ⟨S_, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_call2_v0 : Ref sig .tc := ⟨.hbm, 49, rfl⟩
abbrev main_call2_v1 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_cst_10 : Ref sig .tc := ⟨.hbm, 54, rfl⟩
abbrev main_call3_v0 : Ref sig .tc := ⟨.hbm, 55, rfl⟩
abbrev main_call3_v1 : Ref sig .tc := ⟨.hbm, 56, rfl⟩
abbrev main_v34 : Ref sig .tc := ⟨.hbm, 57, rfl⟩
abbrev main_cst_11 : Ref sig .tc := ⟨.hbm, 58, rfl⟩
abbrev main_v35 : Ref sig .tc := ⟨.hbm, 59, rfl⟩
abbrev main_cst_12 : Ref sig .tc := ⟨.hbm, 60, rfl⟩
abbrev main_v36 : Ref sig .tc := ⟨.hbm, 61, rfl⟩
abbrev main_v37 : Ref sig .tc := ⟨.hbm, 62, rfl⟩
abbrev main_cst_13 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_14 : Ref sig .tc := ⟨.hbm, 67, rfl⟩
abbrev main_call4_v0 : Ref sig .tc := ⟨.hbm, 68, rfl⟩
abbrev main_call4_v1 : Ref sig .tc := ⟨.hbm, 69, rfl⟩
abbrev main_v41 : Ref sig .tc := ⟨.hbm, 70, rfl⟩
abbrev main_v42 : Ref sig .tc := ⟨.hbm, 71, rfl⟩
abbrev main_cst_15 : Ref sig .tc := ⟨.hbm, 72, rfl⟩
abbrev main_call5_v0 : Ref sig .tc := ⟨.hbm, 73, rfl⟩
abbrev main_call5_v1 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_16 : Ref sig .tc := ⟨.hbm, 78, rfl⟩
abbrev main_call6_v0 : Ref sig .tc := ⟨.hbm, 79, rfl⟩
abbrev main_call6_v1 : Ref sig .tc := ⟨.hbm, 80, rfl⟩
abbrev main_v46 : Ref sig .tc := ⟨.hbm, 81, rfl⟩
abbrev main_cst_17 : Ref sig .tc := ⟨.hbm, 82, rfl⟩
abbrev main_v47 : Ref sig .tc := ⟨.hbm, 83, rfl⟩
abbrev main_cst_18 : Ref sig .tc := ⟨.hbm, 84, rfl⟩
abbrev main_v48 : Ref sig .tc := ⟨.hbm, 85, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x512 : S_.BroadcastsInDim S8192x512 (![] : Fin 0 → Fin S8192x512.rank)
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.Spec.lean ====
/-
  The similarity loss, written once as plain formulas over the extended reals.

  Inputs: two matrices `x`, `y` of 8192 rows and 512 columns and a group label per row.  For rows `i`, `j` the squared
  distance is expanded as |x_i|² + |y_j|² − 2·⟨x_i, y_j⟩, clamped at zero; the similarity is exp(−√·).  Row `i`'s
  numerator sums the similarities to the rows of its own group, its denominator those to the other groups; the loss of
  the row is −log(numerator / denominator) where both are positive and 0 elsewhere; the result is the mean over rows.

  Two spellings are recorded.  The `K` forms take the columns in 8 consecutive blocks of 1024, double the inner product
  after summing it, take the square root of the clamped value directly, and obtain the denominator block by block as
  (row sum) − (numerator part).  The `R` forms double the left factor before the inner product, guard the square root
  by a comparison with zero, divide the exponent by one, and sum the denominator's terms directly.
-/
import Idealize.ShloMosaic.PureOps.Ideal
import Idealize.ShloMosaic.PureOps.Ideal.Laws
import Idealize.ShloMosaic.Lib.ValueIdx

noncomputable section

namespace Cert.SimLoss

open Idealize.ShloMosaic

/-- An 8192 × 512 matrix of extended reals, by row and column. -/
abbrev Mat := Fin 8192 → Fin 512 → EReal
/-- A 32-bit group label per row. -/
abbrev Grp := Fin 8192 → BitVec 32

/-- A stored 8192 × 512 array read by row and column, and a stored label vector read by row. -/
def matOf (a : (⟨2, ![8192, 512]⟩ : Shape).Idx → EReal) : Mat := fun i k => a (ValueIdx.ix2 i k)
def grpOf (a : (⟨1, ![8192]⟩ : Shape).Idx → BitVec 32) : Grp := fun i => a (ValueIdx.ix1 i)

/-- The float words 1.0, 2.0 and 8192.0 as the extended reals they denote. -/
abbrev one : EReal := Ideal.ofBits .f32 0x3F800000#32
abbrev two : EReal := Ideal.ofBits .f32 0x40000000#32
abbrev cnt : EReal := Ideal.ofBits .f32 0x46000000#32

/-- |x_i|²: the sum of the squares of row `i`. -/
def nrm (x : Mat) (i : Fin 8192) : EReal := ∑ k : Fin 512, x i k * x i k

/-- ⟨x_i, y_j⟩. -/
def dotK (x y : Mat) (i j : Fin 8192) : EReal := ∑ k : Fin 512, x i k * y j k

/-- ⟨2·x_i, y_j⟩: the left factor doubled entry by entry. -/
def dotR (x y : Mat) (i j : Fin 8192) : EReal := ∑ k : Fin 512, (two * x i k) * y j k

/-- exp(−√max(|x_i|² + |y_j|² − 2⟨x_i, y_j⟩, 0)), the negation written as a difference from zero. -/
def simK (x y : Mat) (i j : Fin 8192) : EReal :=
  Ideal.exp (0 - Ideal.sqrt (max (nrm x i + nrm y j - two * dotK x y i j) 0))

/-- max(|x_i|² + |y_j|² − ⟨2x_i, y_j⟩, 0). -/
def sqR (x y : Mat) (i j : Fin 8192) : EReal := max (nrm x i + nrm y j - dotR x y i j) 0

/-- The same similarity with the square root guarded: where the clamped value is positive its root (of the value, or
    of 1 where it is not positive), else 0; then negated, divided by 1, exponentiated. -/
def simR (x y : Mat) (i j : Fin 8192) : EReal :=
  Ideal.exp (Ideal.div (-(Scalar.select (Ideal.cmp .ogt (sqR x y i j) 0)
    (Ideal.sqrt (Scalar.select (Ideal.cmp .ogt (sqR x y i j) 0) (sqR x y i j) one)) 0)) one)

/-- Whether rows `i` and `j` carry the same group label, as one bit. -/
def same (g : Grp) (i j : Fin 8192) : BitVec 1 := IntOp.cmpi .eq (g i) (g j)

/-- Row `i`'s numerator: the similarities to the rows of its group. -/
def numR (x y : Mat) (g : Grp) (i : Fin 8192) : EReal :=
  ∑ j : Fin 8192, Scalar.select (same g i j) (simR x y i j) 0

/-- Row `i`'s denominator: the similarities to the rows of the other groups. -/
def denR (x y : Mat) (g : Grp) (i : Fin 8192) : EReal :=
  ∑ j : Fin 8192, Scalar.select (same g i j) 0 (simR x y i j)

/-- Column `q` of column block `s` (blocks of 1024 consecutive rows of `y`). -/
def col (s q : ℕ) : Fin 8192 := ⟨(1024 * s + q) % 8192, Nat.mod_lt _ (by decide)⟩

/-- Block `s`'s part of row `r`'s numerator. -/
def cN (x y : Mat) (g : Grp) (r : Fin 8192) (s : ℕ) : EReal :=
  ∑ q : Fin 1024, Scalar.select (same g r (col s q)) (simK x y r (col s q)) 0

/-- Block `s`'s part of row `r`'s sum of all similarities. -/
def cS (x y : Mat) (r : Fin 8192) (s : ℕ) : EReal := ∑ q : Fin 1024, simK x y r (col s q)

/-- Row `r`'s numerator after the first `n` column blocks. -/
def accN (x y : Mat) (g : Grp) (r : Fin 8192) (n : ℕ) : EReal := ∑ s ∈ Finset.range n, cN x y g r s

/-- Row `r`'s denominator after the first `n` column blocks: block by block, (row sum) − (numerator part). -/
def accD (x y : Mat) (g : Grp) (r : Fin 8192) (n : ℕ) : EReal := ∑ s ∈ Finset.range n, (cS x y r s - cN x y g r s)

/-- Whether numerator and denominator are both positive, as one bit. -/
def valid (n d : EReal) : BitVec 1 := IntOp.andi (Ideal.cmp .ogt n 0) (Ideal.cmp .ogt d 0)

/-- The quotient where valid (the denominator replaced by 1 elsewhere), 1 elsewhere. -/
def ratio (n d : EReal) : EReal :=
  Scalar.select (valid n d) (Ideal.div n (Scalar.select (valid n d) d one)) one

/-- A row's loss, the negation written as a difference from zero. -/
def lossK (n d : EReal) : EReal := Scalar.select (valid n d) (0 - Ideal.log (ratio n d)) 0

/-- A row's loss, the negation written as such. -/
def lossR (n d : EReal) : EReal := Scalar.select (valid n d) (-(Ideal.log (ratio n d))) 0

/-- The mean over the 8192 rows. -/
def total (L : Fin 8192 → EReal) : EReal := Ideal.div (∑ i : Fin 8192, L i) cnt

/-- The result in the block-wise spelling. -/
def resultK (x y : Mat) (g : Grp) : EReal := total fun i => lossK (accN x y g i 8) (accD x y g i 8)

/-- The result in the direct spelling. -/
def resultR (x y : Mat) (g : Grp) : EReal := total fun i => lossR (numR x y g i) (denR x y g i)

end Cert.SimLoss

end
-- ==== Proof.LibSumBlocks.lean ====
/-
  A finite sum over `a * b` consecutive indices, taken as `a` consecutive blocks of `b` terms each.
-/
import Mathlib.Algebra.BigOperators.Fin
import Mathlib.Logic.Equiv.Fin.Basic

namespace Cert.LibSumBlocks

open Finset

/-- Term `k` of block `s` sits below `a * b`. -/
theorem blk_lt {a b s k : ℕ} (hs : s < a) (hk : k < b) : b * s + k < a * b :=
  calc b * s + k < b * s + b := Nat.add_lt_add_left hk _
    _ = b * (s + 1) := (Nat.mul_succ b s).symm
    _ ≤ b * a := Nat.mul_le_mul_left b hs
    _ = a * b := Nat.mul_comm b a

/-- In a commutative additive monoid the sum of `F` over `Fin (a * b)` is the sum over the `a` blocks of the sum of
    each block's `b` consecutive terms: `∑_r F r = ∑_{s < a} ∑_{k < b} F (b·s + k)`. Only commutativity and
    associativity of `+` enter, so it holds of the extended reals with their infinities. -/
theorem sum_fin_blocks {M : Type*} [AddCommMonoid M] (a b : ℕ) (F : Fin (a * b) → M) :
    ∑ r : Fin (a * b), F r = ∑ s : Fin a, ∑ k : Fin b, F ⟨b * s.val + k.val, blk_lt s.isLt k.isLt⟩ := by
  rw [← Equiv.sum_comp finProdFinEquiv F, Fintype.sum_prod_type]
  refine Finset.sum_congr rfl fun s _ => Finset.sum_congr rfl fun k _ => congrArg F (Fin.ext ?_)
  show k.val + b * s.val = b * s.val + k.val
  exact Nat.add_comm _ _

end Cert.LibSumBlocks
-- ==== Proof.SpecAlgebra.lean ====
/-
  The two spellings of the similarity loss agree on matrices all of whose entries are real numbers.

  With real entries every inner sum is the image of a real sum, so the clamped squared distance is the image of a
  nonnegative real s, and both spellings of the similarity are the image of exp(−√s): where s > 0 the guarded square
  root takes its first branch twice, where s = 0 it gives 0 = √0; a difference from zero is a negation, and a quotient
  by 1 is the value itself.  The 8 column blocks of 1024 exhaust the 8192 rows in order, which turns the block-wise
  numerator into the direct one; and for a real v, v − (v if c else 0) = (0 if c else v), which summed over a block
  turns (row sum) − (numerator part) into the block's part of the direct denominator.
-/
import proofs.«112421_j4183298146522_2_alg».proof.Proof.Spec
import proofs.«112421_j4183298146522_2_alg».proof.Proof.LibSumBlocks

noncomputable section

namespace Cert.SimLoss

open Idealize.ShloMosaic

/-! ### Constants, and the images of real sums and maxima -/

/-- The word 0x3F800000 denotes 1. -/
theorem one_eq : one = ((1 : ℝ) : EReal) := by
  simp [Ideal.ofBits, Ideal.ieee, -EReal.coe_mul] <;> norm_num

/-- The word 0x40000000 denotes 2. -/
theorem two_eq : two = ((2 : ℝ) : EReal) := by
  simp [Ideal.ofBits, Ideal.ieee, -EReal.coe_mul] <;> norm_num

/-- The image of a finite real sum is the sum of the images. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The image of a real maximum is the maximum of the images. -/
theorem coe_max (a b : ℝ) : ((max a b : ℝ) : EReal) = max (a : EReal) (b : EReal) :=
  EReal.coe_strictMono.monotone.map_max

/-- A quotient by 1 is the value itself, at the infinities too. -/
theorem div_one' (v : EReal) : Ideal.div v one = v := by
  rw [one_eq, Ideal.div_coe one_ne_zero, one_div, inv_one, EReal.coe_one, mul_one]

/-! ### Real matrices -/

/-- A real matrix read as a matrix of extended reals. -/
def cm (X : Fin 8192 → Fin 512 → ℝ) : Mat := fun i k => ((X i k : ℝ) : EReal)

/-- The clamped squared distance of rows i and j, as a real number. -/
def sR (X Y : Fin 8192 → Fin 512 → ℝ) (i j : Fin 8192) : ℝ :=
  max ((∑ k : Fin 512, X i k * X i k) + (∑ k : Fin 512, Y j k * Y j k) - 2 * ∑ k : Fin 512, X i k * Y j k) 0

theorem sR_nonneg (X Y : Fin 8192 → Fin 512 → ℝ) (i j : Fin 8192) : 0 ≤ sR X Y i j := le_max_right _ _

theorem nrm_cm (X : Fin 8192 → Fin 512 → ℝ) (i : Fin 8192) :
    nrm (cm X) i = ((∑ k : Fin 512, X i k * X i k : ℝ) : EReal) := by
  simp only [nrm, cm, coe_sum, EReal.coe_mul]

theorem dotK_cm (X Y : Fin 8192 → Fin 512 → ℝ) (i j : Fin 8192) :
    dotK (cm X) (cm Y) i j = ((∑ k : Fin 512, X i k * Y j k : ℝ) : EReal) := by
  simp only [dotK, cm, coe_sum, EReal.coe_mul]

/-- Doubling the left factor entry by entry doubles the inner product. -/
theorem dotR_cm (X Y : Fin 8192 → Fin 512 → ℝ) (i j : Fin 8192) :
    dotR (cm X) (cm Y) i j = ((2 * ∑ k : Fin 512, X i k * Y j k : ℝ) : EReal) := by
  rw [Finset.mul_sum]
  simp only [dotR, cm, two_eq, coe_sum, EReal.coe_mul, mul_assoc]

/-- The clamped value of the direct spelling is the image of the real one. -/
theorem sqR_cm (X Y : Fin 8192 → Fin 512 → ℝ) (i j : Fin 8192) :
    sqR (cm X) (cm Y) i j = ((sR X Y i j : ℝ) : EReal) := by
  unfold sqR sR
  rw [nrm_cm, nrm_cm, dotR_cm, coe_max, EReal.coe_sub, EReal.coe_add, EReal.coe_zero]

/-- So is the clamped value of the block-wise spelling. -/
theorem argK_cm (X Y : Fin 8192 → Fin 512 → ℝ) (i j : Fin 8192) :
    max (nrm (cm X) i + nrm (cm Y) j - two * dotK (cm X) (cm Y) i j) 0 = ((sR X Y i j : ℝ) : EReal) := by
  unfold sR
  rw [nrm_cm, nrm_cm, dotK_cm, two_eq, coe_max, EReal.coe_sub, EReal.coe_add, EReal.coe_mul, EReal.coe_zero]

/-! ### The similarity -/

/-- The block-wise similarity is the image of exp(−√s). -/
theorem simK_cm (X Y : Fin 8192 → Fin 512 → ℝ) (i j : Fin 8192) :
    simK (cm X) (cm Y) i j = ((Real.exp (-(Real.sqrt (sR X Y i j))) : ℝ) : EReal) := by
  unfold simK
  rw [argK_cm, Ideal.sqrt_coe, if_neg (not_lt.mpr (sR_nonneg X Y i j)), zero_sub, ← EReal.coe_neg, Ideal.exp_coe]

/-- The guarded square root, negated, divided by 1 and exponentiated, at a nonnegative real s: where s > 0 both selects
    take their first branch; where s = 0 the outer one gives 0, which is √0. -/
theorem guard_eq (s : ℝ) (hs : 0 ≤ s) :
    Ideal.exp (Ideal.div (-(Scalar.select (Ideal.cmp .ogt (s : EReal) 0)
      (Ideal.sqrt (Scalar.select (Ideal.cmp .ogt (s : EReal) 0) (s : EReal) one)) 0)) one)
      = ((Real.exp (-(Real.sqrt s)) : ℝ) : EReal) := by
  rw [div_one']
  rcases hs.lt_or_eq with h | h
  · have hc : Ideal.cmp .ogt (s : EReal) 0 = 1#1 := by
      simp [Ideal.cmp, h]
    rw [hc, ValueIdx.select_one, ValueIdx.select_one, Ideal.sqrt_coe, if_neg (not_lt.mpr hs), ← EReal.coe_neg,
      Ideal.exp_coe]
  · subst h
    have hc : Ideal.cmp .ogt ((0 : ℝ) : EReal) 0 = 0#1 := by
      simp [Ideal.cmp]
    rw [hc, ValueIdx.select_zero, neg_zero, Real.sqrt_zero, neg_zero, ← EReal.coe_zero, Ideal.exp_coe]

/-- The direct similarity is the image of exp(−√s) too. -/
theorem simR_cm (X Y : Fin 8192 → Fin 512 → ℝ) (i j : Fin 8192) :
    simR (cm X) (cm Y) i j = ((Real.exp (-(Real.sqrt (sR X Y i j))) : ℝ) : EReal) := by
  unfold simR
  rw [sqR_cm]
  exact guard_eq _ (sR_nonneg X Y i j)

theorem simR_eq_simK (X Y : Fin 8192 → Fin 512 → ℝ) (i j : Fin 8192) :
    simR (cm X) (cm Y) i j = simK (cm X) (cm Y) i j := by
  rw [simR_cm, simK_cm]

/-! ### The 8 blocks of 1024 exhaust the 8192 rows in order -/

/-- Column q of block s is row 1024·s + q. -/
theorem col_eq (s : Fin 8) (q : Fin 1024) :
    col s.val q.val = ⟨1024 * s.val + q.val, Cert.LibSumBlocks.blk_lt s.isLt q.isLt⟩ := by
  apply Fin.ext
  show (1024 * s.val + q.val) % 8192 = 1024 * s.val + q.val
  apply Nat.mod_eq_of_lt
  have h1 := s.isLt
  have h2 := q.isLt
  omega

/-- A sum over the 8 blocks of the sums over each block's 1024 columns is the sum over all 8192 rows. -/
theorem sum_blocks (F : Fin 8192 → EReal) :
    ∑ s ∈ Finset.range 8, ∑ q : Fin 1024, F (col s q) = ∑ j : Fin 8192, F j := by
  rw [Finset.sum_range]
  refine Eq.trans ?_ (Cert.LibSumBlocks.sum_fin_blocks 8 1024 F).symm
  refine Finset.sum_congr rfl fun s _ => Finset.sum_congr rfl fun q _ => ?_
  rw [col_eq]

/-! ### Numerator and denominator -/

theorem accN_eq (X Y : Fin 8192 → Fin 512 → ℝ) (g : Grp) (i : Fin 8192) :
    accN (cm X) (cm Y) g i 8 = numR (cm X) (cm Y) g i :=
  (sum_blocks (fun j => Scalar.select (same g i j) (simK (cm X) (cm Y) i j) 0)).trans
    (Finset.sum_congr rfl fun j _ => by rw [simR_eq_simK])

/-- Over one block, with real terms: (sum of all) − (sum of the selected ones) = sum of the others. -/
theorem block_sub (f : Fin 1024 → ℝ) (c : Fin 1024 → BitVec 1) :
    (∑ q : Fin 1024, (f q : EReal)) - ∑ q : Fin 1024, Scalar.select (c q) (f q : EReal) 0
      = ∑ q : Fin 1024, Scalar.select (c q) 0 (f q : EReal) := by
  have h1 : ∀ q, Scalar.select (c q) (f q : EReal) 0 = (((if c q = 1 then f q else 0) : ℝ) : EReal) := by
    intro q; unfold Scalar.select; split_ifs <;> simp
  have h2 : ∀ q, Scalar.select (c q) 0 (f q : EReal) = ((f q - (if c q = 1 then f q else 0) : ℝ) : EReal) := by
    intro q; unfold Scalar.select; split_ifs <;> simp
  simp only [h1, h2]
  rw [← coe_sum, ← coe_sum, ← coe_sum, ← EReal.coe_sub, Finset.sum_sub_distrib]

theorem accD_eq (X Y : Fin 8192 → Fin 512 → ℝ) (g : Grp) (i : Fin 8192) :
    accD (cm X) (cm Y) g i 8 = denR (cm X) (cm Y) g i := by
  have hb : ∀ s : ℕ, cS (cm X) (cm Y) i s - cN (cm X) (cm Y) g i s
      = ∑ q : Fin 1024, Scalar.select (same g i (col s q)) 0 (simK (cm X) (cm Y) i (col s q)) := by
    intro s
    unfold cS cN
    simp only [simK_cm]
    exact block_sub (fun q => Real.exp (-(Real.sqrt (sR X Y i (col s q))))) (fun q => same g i (col s q))
  unfold accD
  simp only [hb]
  exact (sum_blocks (fun j => Scalar.select (same g i j) 0 (simK (cm X) (cm Y) i j))).trans
    (Finset.sum_congr rfl fun j _ => by rw [simR_eq_simK])

/-! ### The loss and the result -/

/-- A difference from zero is a negation. -/
theorem loss_eq (n d : EReal) : lossK n d = lossR n d := by
  unfold lossK lossR
  rw [zero_sub]

/-- On matrices with real entries the block-wise and the direct spelling give the same result. -/
theorem resultK_eq_resultR (x y : Mat) (g : Grp) (hx : ∀ i k, ∃ r : ℝ, x i k = (r : EReal))
    (hy : ∀ i k, ∃ r : ℝ, y i k = (r : EReal)) : resultK x y g = resultR x y g := by
  choose X hX using hx
  choose Y hY using hy
  have ex : x = cm X := funext fun i => funext fun k => hX i k
  have ey : y = cm Y := funext fun i => funext fun k => hY i k
  rw [ex, ey]
  unfold resultK resultR
  congr 1
  funext i
  rw [accN_eq, accD_eq, loss_eq]

end Cert.SimLoss

end
-- ==== Proof.RefRead.lean ====
/-
  The reference program read down to the direct spelling of the similarity loss.

  Each stage of the reference is a generated function of the three inputs; its value at an index is given by the
  generated lemma of that stage in terms of its operands at an index.  Here the stages are followed from the inputs to
  the result, at explicit coordinates: the squared row norms, the inner product with the doubled left factor, the
  clamped squared distance, the guarded similarity, the group comparison, the two row sums, the row loss and the mean.
-/
import proofs.«112421_j4183298146522_2_alg».proof.Proof.Gen.ReferenceIdeal.Read
import proofs.«112421_j4183298146522_2_alg».proof.Proof.Spec
import Idealize.ShloMosaic.Lib.ValueIdx
import Idealize.ShloMosaic.PureOps.Ideal.Laws

noncomputable section

namespace Cert.SimLoss.Ref

open Cert.ReferenceIdeal Cert.ReferenceIdeal.Read Idealize.ShloMosaic Idealize.ShloMosaic.ValueIdx Cert.SimLoss

variable (x0 x1 : (⟨S8192x512, .f32⟩ : BufTy).Contents (Elt Ideal)) (x2 : (⟨S8192, .i32⟩ : BufTy).Contents (Elt Ideal))

/-! ## The composed index maps at explicit coordinates -/

theorem idx_v1 (p : Fin 8192) (k : Fin 512) : idx_main_v1 (ix1 p) k = ix2 p k :=
  funext fun a => Fin.ext (by match a with | ⟨0, _⟩ => rfl | ⟨1, _⟩ => rfl)

theorem idx_v4 (p : Fin 8192) (k : Fin 512) : idx_main_v4 (ix1 p) k = ix2 p k :=
  funext fun a => Fin.ext (by match a with | ⟨0, _⟩ => rfl | ⟨1, _⟩ => rfl)

theorem idx_v2_v6 (p q : Fin 8192) : idx_main_v2 (idx_main_v6 (ix2 p q)) = ix1 p :=
  funext fun a => Fin.ext (by match a with | ⟨0, _⟩ => rfl)

theorem idx_v5_v7 (p q : Fin 8192) : idx_main_v5 (idx_main_v7 (ix2 p q)) = ix1 q :=
  funext fun a => Fin.ext (by match a with | ⟨0, _⟩ => rfl)

theorem lidx_v12 (p q : Fin 8192) (k : Fin 512) : lidx_main_v12 (ix2 p q) k = ix2 p k :=
  funext fun a => Fin.ext (by match a with | ⟨0, _⟩ => rfl | ⟨1, _⟩ => rfl)

theorem idx_v11_ridx_v12 (p q : Fin 8192) (k : Fin 512) : idx_main_v11 (ridx_main_v12 (ix2 p q) k) = ix2 q k :=
  funext fun a => Fin.ext (by match a with | ⟨0, _⟩ => rfl | ⟨1, _⟩ => rfl)

theorem idx_v27_v29 (p q : Fin 8192) : idx_main_v27 (idx_main_v29 (ix2 p q)) = ix1 p :=
  funext fun a => Fin.ext (by match a with | ⟨0, _⟩ => rfl)

theorem idx_v28_v30 (p q : Fin 8192) : idx_main_v28 (idx_main_v30 (ix2 p q)) = ix1 q :=
  funext fun a => Fin.ext (by match a with | ⟨0, _⟩ => rfl)

theorem idx_v33 (p q : Fin 8192) : idx_main_v33 (ix1 p) q = ix2 p q :=
  funext fun a => Fin.ext (by match a with | ⟨0, _⟩ => rfl | ⟨1, _⟩ => rfl)

theorem idx_v35 (p q : Fin 8192) : idx_main_v35 (ix1 p) q = ix2 p q :=
  funext fun a => Fin.ext (by match a with | ⟨0, _⟩ => rfl | ⟨1, _⟩ => rfl)

/-! ## The stages -/

/-- The squared norm of row `p` of the first input. -/
theorem nrm0_apply (p : Fin 8192) : val_main_v1 (F := Ideal) x0 (ix1 p) = nrm (matOf x0) p := by
  rw [val_main_v1_apply, val_main_cst_apply, Ideal.ofBits_def, Ideal.ofBits_zero_f32, zero_add]
  unfold nrm matOf
  refine Finset.sum_congr rfl fun k _ => ?_
  rw [val_main_v0_apply, Ideal.mulf_def, idx_v1]

/-- The squared norm of row `q` of the second input. -/
theorem nrm1_apply (q : Fin 8192) : val_main_v4 (F := Ideal) x1 (ix1 q) = nrm (matOf x1) q := by
  rw [val_main_v4_apply, val_main_cst_0_apply, Ideal.ofBits_def, Ideal.ofBits_zero_f32, zero_add]
  unfold nrm matOf
  refine Finset.sum_congr rfl fun k _ => ?_
  rw [val_main_v3_apply, Ideal.mulf_def, idx_v4]

/-- The inner product of the doubled row `p` of the first input with row `q` of the second. -/
theorem dot_apply (p q : Fin 8192) : val_main_v12 (F := Ideal) x0 x1 (ix2 p q) = dotR (matOf x0) (matOf x1) p q := by
  rw [val_main_v12_apply]
  unfold dotR matOf
  refine Finset.sum_congr rfl fun k _ => ?_
  rw [val_main_v10_apply, val_main_v9_apply, val_main_cst_1_apply, val_main_v11_apply, Ideal.mulf_def, Ideal.ofBits_def,
    lidx_v12, idx_v11_ridx_v12]

/-- The clamped squared distance of rows `p` and `q`. -/
theorem sq_apply (p q : Fin 8192) : val_main_v15 (F := Ideal) x0 x1 (ix2 p q) = sqR (matOf x0) (matOf x1) p q := by
  rw [val_main_v15_apply, val_main_v13_apply, val_main_v8_apply, val_main_v6_apply, val_main_v2_apply, val_main_v7_apply,
    val_main_v5_apply, val_main_v14_apply, val_main_cst_2_apply, idx_v2_v6, idx_v5_v7, nrm0_apply, nrm1_apply, dot_apply,
    Ideal.maximumf_def, Ideal.subf_def, Ideal.addf_def, Ideal.ofBits_def, Ideal.ofBits_zero_f32]
  rfl

/-- The similarity of rows `p` and `q`, with the guarded square root. -/
theorem sim_apply (p q : Fin 8192) : val_main_v26 (F := Ideal) x0 x1 (ix2 p q) = simR (matOf x0) (matOf x1) p q := by
  rw [val_main_v26_apply, val_main_v25_apply, val_main_v23_apply, val_main_v22_apply, val_main_v20_apply,
    val_main_v21_apply, val_main_v18_apply, val_main_v17_apply, val_main_v16_apply, val_main_cst_3_apply,
    val_main_v19_apply, val_main_cst_5_apply, val_main_call0_v1_apply, val_main_call0_v0_apply, val_main_cst_4_apply,
    val_main_call1_v1_apply, val_main_call1_v0_apply, val_main_cst_6_apply, val_main_v24_apply, val_main_cst_7_apply,
    sq_apply]
  simp only [Ideal.hostUnary_exp_def, Ideal.hostDivf_def, Ideal.hostNegf_def, Ideal.negf_def, Ideal.hostUnary_sqrt_def,
    Ideal.cmpf_def, Ideal.ofBits_def, Ideal.ofBits_zero_f32]
  rfl

/-- Whether rows `p` and `q` carry the same label. -/
theorem same_apply (p q : Fin 8192) : val_main_v31 (F := Ideal) x2 (ix2 p q) = same (grpOf x2) p q := by
  rw [val_main_v31_apply, val_main_v29_apply, val_main_v27_apply, val_main_v30_apply, val_main_v28_apply, idx_v27_v29,
    idx_v28_v30]
  rfl

/-- Row `p`'s numerator. -/
theorem num_apply (p : Fin 8192) :
    val_main_v33 (F := Ideal) x0 x1 x2 (ix1 p) = numR (matOf x0) (matOf x1) (grpOf x2) p := by
  rw [val_main_v33_apply, val_main_cst_9_apply, Ideal.ofBits_def, Ideal.ofBits_zero_f32, zero_add]
  unfold numR
  refine Finset.sum_congr rfl fun q _ => ?_
  rw [idx_v33, val_main_v32_apply, val_main_call2_v1_apply, val_main_call2_v0_apply, val_main_cst_8_apply, same_apply,
    sim_apply, Ideal.ofBits_def, Ideal.ofBits_zero_f32]

/-- Row `p`'s denominator. -/
theorem den_apply (p : Fin 8192) :
    val_main_v35 (F := Ideal) x0 x1 x2 (ix1 p) = denR (matOf x0) (matOf x1) (grpOf x2) p := by
  rw [val_main_v35_apply, val_main_cst_11_apply, Ideal.ofBits_def, Ideal.ofBits_zero_f32, zero_add]
  unfold denR
  refine Finset.sum_congr rfl fun q _ => ?_
  rw [idx_v35, val_main_v34_apply, val_main_call3_v1_apply, val_main_call3_v0_apply, val_main_cst_10_apply, same_apply,
    sim_apply, Ideal.ofBits_def, Ideal.ofBits_zero_f32]

/-- Whether row `p`'s numerator and denominator are both positive. -/
theorem valid_apply (p : Fin 8192) :
    val_main_v40 (F := Ideal) x0 x1 x2 (ix1 p)
      = valid (numR (matOf x0) (matOf x1) (grpOf x2) p) (denR (matOf x0) (matOf x1) (grpOf x2) p) := by
  rw [val_main_v40_apply, val_main_v37_apply, val_main_v39_apply, val_main_v36_apply, val_main_cst_12_apply,
    val_main_v38_apply, val_main_cst_13_apply, num_apply, den_apply, Ideal.cmpf_def, Ideal.cmpf_def, Ideal.ofBits_def,
    Ideal.ofBits_zero_f32]
  rfl

/-- Row `p`'s loss. -/
theorem loss_apply (p : Fin 8192) :
    val_main_v46 (F := Ideal) x0 x1 x2 (ix1 p)
      = lossR (numR (matOf x0) (matOf x1) (grpOf x2) p) (denR (matOf x0) (matOf x1) (grpOf x2) p) := by
  rw [val_main_v46_apply, val_main_v45_apply, val_main_v44_apply, val_main_v43_apply, val_main_v42_apply,
    val_main_v41_apply, val_main_call4_v1_apply, val_main_call4_v0_apply, val_main_cst_14_apply,
    val_main_call5_v1_apply, val_main_call5_v0_apply, val_main_cst_15_apply, val_main_call6_v1_apply,
    val_main_call6_v0_apply, val_main_cst_16_apply, valid_apply, num_apply, den_apply]
  simp only [Ideal.hostNegf_def, Ideal.negf_def, Ideal.hostUnary_log_def, Ideal.hostDivf_def, Ideal.ofBits_def,
    Ideal.ofBits_zero_f32]
  rfl

/-- The rank-one index set of extent 8192 is its coordinate range. -/
def rowEquiv : Fin 8192 ≃ S8192.Idx where
  toFun p := ix1 p
  invFun j := j 0
  left_inv _ := rfl
  right_inv j := (eq_ix1 j).symm

/-- The reference's result is the direct spelling of the loss. -/
theorem ref_eq (i : S_.Idx) :
    val_main_v48 (F := Ideal) x0 x1 x2 i = resultR (matOf x0) (matOf x1) (grpOf x2) := by
  rw [val_main_v48_apply, val_main_v47_apply, val_main_cst_17_apply, val_main_cst_18_apply, Ideal.hostDivf_def,
    Ideal.ofBits_def, Ideal.ofBits_def, Ideal.ofBits_zero_f32, zero_add,
    ← Equiv.sum_comp rowEquiv (val_main_v46 (F := Ideal) x0 x1 x2)]
  unfold resultR total
  refine congrArg (fun s => Ideal.div s cnt) (Finset.sum_congr rfl fun p _ => ?_)
  exact loss_apply x0 x1 x2 p

end Cert.SimLoss.Ref

end
-- ==== Proof.FiniteInputs.lean ====
/-
  From the precondition to "every entry of the two float inputs is a real number".

  The precondition takes, for each of the two 8192 × 512 inputs, the conjunction over all entries of |x| < +∞, and
  conjoins the two results.  Its value being 1 gives each comparison bit; a comparison bit being 1 is the strict
  inequality; and an extended real whose absolute value max x (−x) lies strictly below +∞ is neither −∞ nor +∞.
-/
import proofs.«112421_j4183298146522_2_alg».proof.Pre_finite_inputs
import Idealize.ShloMosaic.Lib.ReduceAll
import Idealize.ShloMosaic.PureOps.Ideal.Laws
import Idealize.ShloMosaic.Lib.ValueIdx

noncomputable section

namespace Cert.SimLoss.Fin

open Idealize.ShloMosaic
open Cert.Pre_finite_inputs

/-- The scalar shape has a single index. -/
instance subsingleton_scalar_idx : Subsingleton S_.Idx := ⟨fun a b => funext fun d => d.elim0⟩

/-- The f32 word 0x7F800000 denotes +∞. -/
theorem ofBits_inf : Ideal.ofBits .f32 0x7F800000#32 = (⊤ : EReal) := by
  simp [Ideal.ofBits, Ideal.ieee]

/-- An extended real whose absolute value max x (−x) lies strictly below +∞ is a real number: −∞ has −(−∞) = +∞ and
    +∞ is itself the bound, so only the coercions of reals remain. -/
theorem real_of_abs_lt_top (x : EReal) (h : max x (-x) < ⊤) : ∃ r : ℝ, x = (r : EReal) := by
  induction x using EReal.rec with
  | bot => simp at h
  | coe r => exact ⟨r, rfl⟩
  | top => simp at h

/-- The ordered "less than" comparison bit being 1 is the strict inequality. -/
theorem lt_of_cmp_olt (x y : EReal) (h : Ideal.cmp .olt x y = 1#1) : x < y := by
  by_contra hn
  simp [Ideal.cmp, hn] at h

/-- A scalar broadcast to the 8192 × 512 shape reads the scalar at every index. -/
theorem bcast_scalar_apply {α : Type} (hb : S_.BroadcastsInDim S8192x512 (![] : Fin 0 → Fin S8192x512.rank))
    (x : S_.Idx → α) (j : S8192x512.Idx) : broadcastInDim S8192x512 ![] hb x j = x ValueIdx.ix0 := by
  unfold broadcastInDim
  exact congrArg x (funext fun a => a.elim0)

/-- One entry: the comparison bit of |a j| against the broadcast +∞ word being 1 makes `a j` a real number. -/
theorem real_of_bit (hb : S_.BroadcastsInDim S8192x512 (![] : Fin 0 → Fin S8192x512.rank))
    (a : FVec Ideal S8192x512 .f32) (j : S8192x512.Idx)
    (h : cmpf .olt (Host.absf a) (broadcastInDim S8192x512 ![] hb (constant S_ .f32 0x7F800000#32)) j = 1#1) :
    ∃ r : ℝ, a j = (r : EReal) := by
  rw [ValueIdx.cmpf_apply, bcast_scalar_apply, ValueIdx.constant_apply, ofBits_inf, Ideal.cmpf_def] at h
  have h' : max (a j) (-(a j)) < ⊤ := lt_of_cmp_olt _ _ h
  exact real_of_abs_lt_top (a j) h'

/-- One input: the conjunction over all entries being 1 makes every entry a real number. -/
theorem real_of_all (hb : S_.BroadcastsInDim S8192x512 (![] : Fin 0 → Fin S8192x512.rank))
    (hr : S8192x512.ReducesTo [0, 1] S_) (hu : 0 < S_.numel) (a : FVec Ideal S8192x512 .f32)
    (h : Host.reduce IntOp.andi
        (cmpf .olt (Host.absf a) (broadcastInDim S8192x512 ![] hb (constant S_ .f32 0x7F800000#32)))
        (constantI S_ 1 1#1) hr hu ValueIdx.ix0 = 1#1) :
    ∀ j, ∃ r : ℝ, a j = (r : EReal) := fun j =>
  real_of_bit hb a j (Host.reduce_andi_all _ _ hr hu ValueIdx.ix0 h j)

variable [Cert.Pre_finite_inputs.Facts]

/-- The precondition holding makes every entry of both float inputs a real number. -/
theorem real_of_pre (a0 a1 : FVec Ideal Cert.Pre_finite_inputs.S8192x512 .f32)
    (a2 : IVec Cert.Pre_finite_inputs.S8192 32)
    (h : Cert.Pre_finite_inputs.fn (F := Ideal) a0 a1 a2 = fun _ => 1#1) :
    (∀ j, ∃ r : ℝ, a0 j = (r : EReal)) ∧ (∀ j, ∃ r : ℝ, a1 j = (r : EReal)) := by
  have h0 := congrFun h ValueIdx.ix0
  unfold Cert.Pre_finite_inputs.fn at h0
  dsimp only at h0
  obtain ⟨h1, h2⟩ := IntOp.andi_eq_one.1 h0
  exact ⟨real_of_all _ _ _ a0 h1, real_of_all _ _ _ a1 h2⟩

end Cert.SimLoss.Fin

end
-- ==== Proof.KDefs.lean ====
/-
  The kernel's three argument arrays as the formulas' inputs, and where a grid point's blocks sit in them.

  The grid has 8 × 8 points, visited row-major: point `t` works on row block `t / 8` (1024 consecutive rows of the left
  matrix) against column block `t % 8` (1024 consecutive rows of the right matrix).
-/
import proofs.«112421_j4183298146522_2_alg».proof.Proof.Gen.KernelIdeal.Frame
import proofs.«112421_j4183298146522_2_alg».proof.Proof.Spec

noncomputable section

open Idealize.ShloMosaic Idealize.ShloMosaic.TcCoe Idealize.SL.Sem

namespace Cert.KernelIdeal.K

open Cert.KernelIdeal Cert.KernelIdeal.Gen Cert.SimLoss

variable (m : (ℓ : Loc nD τ sig) → Buf (Elt Ideal) ℓ)

/-- The left matrix, the right matrix and the group labels as core `c` finds them at launch. -/
def X (c : Dev nD) : Mat := matOf (m ((c.tc : Thread nD τ).loc main_arg0))
def Y (c : Dev nD) : Mat := matOf (m ((c.tc : Thread nD τ).loc main_arg1))
def G (c : Dev nD) : Grp := grpOf (m ((c.tc : Thread nD τ).loc main_arg2))

/-- Row `p` of point `t`'s row block, as a row of the whole left matrix. -/
def row (t : Fin cfg0.N) (p : Fin 1024) : Fin 8192 := ⟨(1024 * (t.val / 8) + p.val) % 8192, Nat.mod_lt _ (by decide)⟩

/-- The row losses as one column of the whole output: row `j`'s loss from its numerator and denominator over all
    eight column blocks. -/
def lossCol (c : Dev nD) : (⟨2, ![8192, 1]⟩ : Shape).Idx → EReal :=
  fun j => lossK (accN (X m c) (Y m c) (G m c) (j 0) 8) (accD (X m c) (Y m c) (G m c) (j 0) 8)

end Cert.KernelIdeal.K

end
-- ==== Proof.KBlocks.lean ====
/-
  What each input block holds at a grid point, entry by entry, in terms of the three launch arrays.

  Before the grid runs, six arrays are prepared from the launch arrays: the left and the right matrix converted to a
  narrower format (the identity on extended reals), the squared row norms of the left matrix as a column and those of the
  right matrix as a row (each zero plus the sum of the squares over the row), and the labels once as a column and once
  as a row (the same entries re-indexed).  At point t the blocks of the left matrix, of the norm column and of the label
  column are block t/8 along the rows, 1024 rows each; those of the right matrix, of the norm row and of the label row
  are block t%8, 1024 rows, respectively columns, each.  An entry of a block sits in its array at
  (block index) × (block extent) + (coordinate inside the block) along each axis, and 1024·(t/8) + p and 1024·(t%8) + q
  stay below 8192 for the 64 points.
-/
import proofs.«112421_j4183298146522_2_alg».proof.Proof.KDefs
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.Blocks

open Cert.KernelIdeal Cert.KernelIdeal.Gen Cert.KernelIdeal.K Cert.SimLoss Idealize.ShloMosaic Idealize.ShloMosaic.ValueIdx Idealize.ShloMosaic.TcCoe Idealize.SL.Sem

variable (m : (ℓ : Loc nD τ sig) → Buf (Elt Ideal) ℓ)

/-! ### The window arrays as the region finds them, entry by entry -/

/-- The sum of the squares of a row, as the host computes it: zero plus the sum over the row. -/
theorem rowsum_apply (A : FVec Ideal S8192x512 .f32) (i : Fin 8192) :
    Host.reduceAdd (F := Ideal) (mulf A A) (constant (F := Ideal) S_ .f32 0x00000000#32) reducesTo_S8192x512_S8192_d1 h_S_ (ix1 i)
      = nrm (matOf A) i := by
  simp only [Host.reduceAdd, Ideal.hostReduceAdd_def]
  rw [Ideal.hostReduceAdd_single reducesTo_S8192x512_S8192_d1 (by decide)]
  rw [constant_apply, Ideal.ofBits_zero_f32, zero_add]
  unfold nrm matOf
  refine Finset.sum_congr rfl fun k _ => ?_
  rw [mulf_apply]
  exact congrArg (fun j => A j * A j) (funext fun a => Fin.ext (by match a with | ⟨0, _⟩ => rfl | ⟨1, _⟩ => rfl))

/-- A vector of length 8192 cast to a column reads, at row i, its entry i. -/
theorem cast_col_apply {α : Type} (x : S8192.Idx → α) (i : Fin 8192) :
    shapeCast S8192x1 x shapeCasts_S8192_S8192x1 (ix2 i (0 : Fin 1)) = x (ix1 i) :=
  shapeCast_apply x shapeCasts_S8192_S8192x1 _ _ (by
    rw [Shape.rowMajor_val_two, Shape.rowMajor_val_one]
    show i.val = i.val * 1 + 0
    omega)

/-- A vector of length 8192 cast to a row reads, at column j, its entry j. -/
theorem cast_row_apply {α : Type} (x : S8192.Idx → α) (j : Fin 8192) :
    shapeCast S1x8192 x shapeCasts_S8192_S1x8192 (ix2 (0 : Fin 1) j) = x (ix1 j) :=
  shapeCast_apply x shapeCasts_S8192_S1x8192 _ _ (by
    rw [Shape.rowMajor_val_two, Shape.rowMajor_val_one]
    show j.val = 0 * 8192 + j.val
    omega)

/-- The left matrix converted to the narrower format holds the left matrix. -/
theorem arr0 (c : Dev nD) (i : Fin 8192) (k : Fin 512) :
    (V m c main_v0 : S8192x512.Idx → EReal) (ix2 i k) = X m c i k := by
  have e : (V m c main_v0 : S8192x512.Idx → EReal)
      = (truncf .bf16 (m ((c.tc : Thread nD τ).loc main_arg0) : FVec Ideal S8192x512 .f32) bitsLt_bf16_f32 : FVec Ideal S8192x512 .bf16) := by
    show StableHlo.after hostOps0 (fun b => m (c, b)) (Proc.devRef .tc main_v0) = _
    after_results
  rw [e]
  rfl

/-- The right matrix converted to the narrower format holds the right matrix. -/
theorem arr1 (c : Dev nD) (j : Fin 8192) (k : Fin 512) :
    (V m c main_v1 : S8192x512.Idx → EReal) (ix2 j k) = Y m c j k := by
  have e : (V m c main_v1 : S8192x512.Idx → EReal)
      = (truncf .bf16 (m ((c.tc : Thread nD τ).loc main_arg1) : FVec Ideal S8192x512 .f32) bitsLt_bf16_f32 : FVec Ideal S8192x512 .bf16) := by
    show StableHlo.after hostOps0 (fun b => m (c, b)) (Proc.devRef .tc main_v1) = _
    after_results
  rw [e]
  rfl

/-- The column of the left matrix's squared row norms. -/
theorem arr2 (c : Dev nD) (i : Fin 8192) :
    (V m c main_v4 : S8192x1.Idx → EReal) (ix2 i (0 : Fin 1)) = nrm (X m c) i := by
  have e : (V m c main_v4 : S8192x1.Idx → EReal)
      = (broadcastInDim S8192x1 ![0] bcast_S8192_S8192x1_0
          (Host.reduceAdd (F := Ideal) (mulf (m ((c.tc : Thread nD τ).loc main_arg0) : FVec Ideal S8192x512 .f32) (m ((c.tc : Thread nD τ).loc main_arg0)))
            (constant (F := Ideal) S_ .f32 0x00000000#32) reducesTo_S8192x512_S8192_d1 h_S_) : S8192x1.Idx → EReal) := by
    show StableHlo.after hostOps0 (fun b => m (c, b)) (Proc.devRef .tc main_v4) = _
    after_results
  rw [e]
  refine (broadcastInDim_apply _ bcast_S8192_S8192x1_0 _ (ix2 i (0 : Fin 1)) (ix1 i) (fun a => match a with
    | ⟨0, _⟩ => by show i.val = if (8192 : Nat) = 1 then 0 else i.val; rw [if_neg (by decide)])).trans ?_
  exact rowsum_apply _ i

/-- The row of the right matrix's squared row norms. -/
theorem arr3 (c : Dev nD) (j : Fin 8192) :
    (V m c main_v7 : S1x8192.Idx → EReal) (ix2 (0 : Fin 1) j) = nrm (Y m c) j := by
  have e : (V m c main_v7 : S1x8192.Idx → EReal)
      = (shapeCast S1x8192
          (Host.reduceAdd (F := Ideal) (mulf (m ((c.tc : Thread nD τ).loc main_arg1) : FVec Ideal S8192x512 .f32) (m ((c.tc : Thread nD τ).loc main_arg1)))
            (constant (F := Ideal) S_ .f32 0x00000000#32) reducesTo_S8192x512_S8192_d1 h_S_) shapeCasts_S8192_S1x8192 : S1x8192.Idx → EReal) := by
    show StableHlo.after hostOps0 (fun b => m (c, b)) (Proc.devRef .tc main_v7) = _
    after_results
    rfl
  rw [e]
  exact (cast_row_apply _ j).trans (rowsum_apply _ j)

/-- The labels as a column. -/
theorem arr4 (c : Dev nD) (i : Fin 8192) :
    (V m c main_v8 : S8192x1.Idx → BitVec 32) (ix2 i (0 : Fin 1)) = G m c i := by
  have e : (V m c main_v8 : S8192x1.Idx → BitVec 32)
      = (shapeCast S8192x1 (m ((c.tc : Thread nD τ).loc main_arg2) : S8192.Idx → BitVec 32) shapeCasts_S8192_S8192x1 : S8192x1.Idx → BitVec 32) := by
    show StableHlo.after hostOps0 (fun b => m (c, b)) (Proc.devRef .tc main_v8) = _
    after_results
    rfl
  rw [e]
  exact cast_col_apply _ i

/-- The labels as a row. -/
theorem arr5 (c : Dev nD) (j : Fin 8192) :
    (V m c main_v9 : S1x8192.Idx → BitVec 32) (ix2 (0 : Fin 1) j) = G m c j := by
  have e : (V m c main_v9 : S1x8192.Idx → BitVec 32)
      = (shapeCast S1x8192 (m ((c.tc : Thread nD τ).loc main_arg2) : S8192.Idx → BitVec 32) shapeCasts_S8192_S1x8192 : S1x8192.Idx → BitVec 32) := by
    show StableHlo.after hostOps0 (fun b => m (c, b)) (Proc.devRef .tc main_v9) = _
    after_results
    rfl
  rw [e]
  exact cast_row_apply _ j

/-! ### The blocks: point t's row block is rows 1024·(t/8)…, its column block rows 1024·(t%8)… -/

/-- Where the six input windows sit at point t: windows 0, 2, 4 at block t/8 of the first axis, windows 1 and 3, 5 at
    block t%8 of the first, respectively the second, axis — decided once over the 64 points. -/
theorem idx0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem idx1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem idx2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)
theorem idx3 : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)
theorem idx4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)
theorem idx5 : ∀ t : Fin cfg0.N, win0_5.index t (0 : Fin 2) = 0 ∧ win0_5.index t (1 : Fin 2) = t.val % 8 :=
  (by decide +kernel : ∀ t : Fin grid0.N, win0_5.index t (0 : Fin 2) = 0 ∧ win0_5.index t (1 : Fin 2) = t.val % 8)

/-- Window 0's block at point t, entry (p, k), is the converted left matrix at row 1024·(t/8) + p, column k. -/
theorem read0 (c : Dev nD) (t : Fin cfg0.N) (p : Fin 1024) (k : Fin 512) :
    (iblk m c 0 t : FVec Ideal S1024x512 .bf16) (ix2 p k) = (V m c main_v0 : S8192x512.Idx → EReal) (ix2 (row t p) k) := by
  have hi := idx0 t
  have hN : cfg0.N = 64 := N_0
  have ht := t.isLt
  have hp := p.isLt
  unfold iblk
  rw [View.read_apply]
  show V m c main_v0 _ = V m c main_v0 _
  refine congrArg (V m c main_v0 : S8192x512.Idx → EReal) (funext fun a => Fin.ext ?_)
  match a with
  | ⟨0, _⟩ => show win0_0.index t 0 * 1024 + 1 * p.val = (1024 * (t.val / 8) + p.val) % 8192; rw [hi.1]; omega
  | ⟨1, _⟩ => show win0_0.index t 1 * 512 + 1 * k.val = k.val; rw [hi.2]; omega

/-- Window 1's block at point t, entry (q, k), is the converted right matrix at row 1024·(t%8) + q, column k. -/
theorem read1 (c : Dev nD) (t : Fin cfg0.N) (q : Fin 1024) (k : Fin 512) :
    (iblk m c 1 t : FVec Ideal S1024x512 .bf16) (ix2 q k)
      = (V m c main_v1 : S8192x512.Idx → EReal) (ix2 (col (t.val % 8) q.val) k) := by
  have hi := idx1 t
  have hN : cfg0.N = 64 := N_0
  have ht := t.isLt
  have hq := q.isLt
  unfold iblk
  rw [View.read_apply]
  show V m c main_v1 _ = V m c main_v1 _
  refine congrArg (V m c main_v1 : S8192x512.Idx → EReal) (funext fun a => Fin.ext ?_)
  match a with
  | ⟨0, _⟩ => show win0_1.index t 0 * 1024 + 1 * q.val = (1024 * (t.val % 8) + q.val) % 8192; rw [hi.1]; omega
  | ⟨1, _⟩ => show win0_1.index t 1 * 512 + 1 * k.val = k.val; rw [hi.2]; omega

/-- Window 2's block at point t, entry (p, 0), is the norm column at row 1024·(t/8) + p. -/
theorem read2 (c : Dev nD) (t : Fin cfg0.N) (p : Fin 1024) :
    (iblk m c 2 t : FVec Ideal S1024x1 .f32) (ix2 p (0 : Fin 1))
      = (V m c main_v4 : S8192x1.Idx → EReal) (ix2 (row t p) (0 : Fin 1)) := by
  have hi := idx2 t
  have hN : cfg0.N = 64 := N_0
  have ht := t.isLt
  have hp := p.isLt
  unfold iblk
  rw [View.read_apply]
  show V m c main_v4 _ = V m c main_v4 _
  refine congrArg (V m c main_v4 : S8192x1.Idx → EReal) (funext fun a => Fin.ext ?_)
  match a with
  | ⟨0, _⟩ => show win0_2.index t 0 * 1024 + 1 * p.val = (1024 * (t.val / 8) + p.val) % 8192; rw [hi.1]; omega
  | ⟨1, _⟩ => show win0_2.index t 1 * 1 + 1 * 0 = 0; rw [hi.2]

/-- Window 3's block at point t, entry (0, q), is the norm row at column 1024·(t%8) + q. -/
theorem read3 (c : Dev nD) (t : Fin cfg0.N) (q : Fin 1024) :
    (iblk m c 3 t : FVec Ideal S1x1024 .f32) (ix2 (0 : Fin 1) q)
      = (V m c main_v7 : S1x8192.Idx → EReal) (ix2 (0 : Fin 1) (col (t.val % 8) q.val)) := by
  have hi := idx3 t
  have hN : cfg0.N = 64 := N_0
  have ht := t.isLt
  have hq := q.isLt
  unfold iblk
  rw [View.read_apply]
  show V m c main_v7 _ = V m c main_v7 _
  refine congrArg (V m c main_v7 : S1x8192.Idx → EReal) (funext fun a => Fin.ext ?_)
  match a with
  | ⟨0, _⟩ => show win0_3.index t 0 * 1 + 1 * 0 = 0; rw [hi.1]
  | ⟨1, _⟩ => show win0_3.index t 1 * 1024 + 1 * q.val = (1024 * (t.val % 8) + q.val) % 8192; rw [hi.2]; omega

/-- Window 4's block at point t, entry (p, 0), is the label column at row 1024·(t/8) + p. -/
theorem read4 (c : Dev nD) (t : Fin cfg0.N) (p : Fin 1024) :
    (iblk m c 4 t : Vec Ideal S1024x1 .i32) (ix2 p (0 : Fin 1))
      = (V m c main_v8 : S8192x1.Idx → BitVec 32) (ix2 (row t p) (0 : Fin 1)) := by
  have hi := idx4 t
  have hN : cfg0.N = 64 := N_0
  have ht := t.isLt
  have hp := p.isLt
  unfold iblk
  rw [View.read_apply]
  show V m c main_v8 _ = V m c main_v8 _
  refine congrArg (V m c main_v8 : S8192x1.Idx → BitVec 32) (funext fun a => Fin.ext ?_)
  match a with
  | ⟨0, _⟩ => show win0_4.index t 0 * 1024 + 1 * p.val = (1024 * (t.val / 8) + p.val) % 8192; rw [hi.1]; omega
  | ⟨1, _⟩ => show win0_4.index t 1 * 1 + 1 * 0 = 0; rw [hi.2]

/-- Window 5's block at point t, entry (0, q), is the label row at column 1024·(t%8) + q. -/
theorem read5 (c : Dev nD) (t : Fin cfg0.N) (q : Fin 1024) :
    (iblk m c 5 t : Vec Ideal S1x1024 .i32) (ix2 (0 : Fin 1) q)
      = (V m c main_v9 : S1x8192.Idx → BitVec 32) (ix2 (0 : Fin 1) (col (t.val % 8) q.val)) := by
  have hi := idx5 t
  have hN : cfg0.N = 64 := N_0
  have ht := t.isLt
  have hq := q.isLt
  unfold iblk
  rw [View.read_apply]
  show V m c main_v9 _ = V m c main_v9 _
  refine congrArg (V m c main_v9 : S1x8192.Idx → BitVec 32) (funext fun a => Fin.ext ?_)
  match a with
  | ⟨0, _⟩ => show win0_5.index t 0 * 1 + 1 * 0 = 0; rw [hi.1]
  | ⟨1, _⟩ => show win0_5.index t 1 * 1024 + 1 * q.val = (1024 * (t.val % 8) + q.val) % 8192; rw [hi.2]; omega

/-! ### The six input blocks in terms of the launch arrays -/

variable (c : Dev nD) (t : Fin cfg0.N)

/-- The left block: rows 1024·(t/8)… of the left matrix. -/
theorem blk0 (p : Fin 1024) (k : Fin 512) :
    (iblk m c 0 t : FVec Ideal S1024x512 .bf16) (ix2 p k) = X m c (row t p) k :=
  (read0 m c t p k).trans (arr0 m c (row t p) k)

/-- The right block: rows 1024·(t%8)… of the right matrix. -/
theorem blk1 (q : Fin 1024) (k : Fin 512) :
    (iblk m c 1 t : FVec Ideal S1024x512 .bf16) (ix2 q k) = Y m c (col (t.val % 8) q.val) k :=
  (read1 m c t q k).trans (arr1 m c (col (t.val % 8) q.val) k)

/-- The left block's squared row norms, as a column. -/
theorem blk2 (p : Fin 1024) :
    (iblk m c 2 t : FVec Ideal S1024x1 .f32) (ix2 p (0 : Fin 1)) = nrm (X m c) (row t p) :=
  (read2 m c t p).trans (arr2 m c (row t p))

/-- The right block's squared row norms, as a row. -/
theorem blk3 (q : Fin 1024) :
    (iblk m c 3 t : FVec Ideal S1x1024 .f32) (ix2 (0 : Fin 1) q) = nrm (Y m c) (col (t.val % 8) q.val) :=
  (read3 m c t q).trans (arr3 m c (col (t.val % 8) q.val))

/-- The left block's labels, as a column. -/
theorem blk4 (p : Fin 1024) :
    (iblk m c 4 t : Vec Ideal S1024x1 .i32) (ix2 p (0 : Fin 1)) = G m c (row t p) :=
  (read4 m c t p).trans (arr4 m c (row t p))

/-- The right block's labels, as a row. -/
theorem blk5 (q : Fin 1024) :
    (iblk m c 5 t : Vec Ideal S1x1024 .i32) (ix2 (0 : Fin 1) q) = G m c (col (t.val % 8) q.val) :=
  (read5 m c t q).trans (arr5 m c (col (t.val % 8) q.val))

end Cert.KernelIdeal.Blocks

end
-- ==== Proof.KPieces.lean ====
/-
  What each control case of the kernel body leaves behind, as plain terms over the body's arithmetic.

  The body keeps two running column vectors across the eight column blocks of a row block: the numerator so far and the
  denominator so far.  At the first column block it first sets both to zero; at every block it adds this block's
  contribution to each; at the last block it then reads both back and stores the row losses.  Each store overwrites its
  whole buffer, so what a buffer holds afterwards is the last value stored, and a value read back after a store is the
  value stored.
-/
import proofs.«112421_j4183298146522_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offset of a whole-buffer access. -/
theorem hz : (![0, 0] : Fin 2 → Nat) = fun _ => 0 := funext fun a => by fin_cases a <;> rfl

/-- A middle column block: the numerator so far plus this block's masked row sums. -/
theorem sout_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i) (x0 : Vec F S1024x512 .bf16) (x1 : Vec F S1024x512 .bf16) (x2 : Vec F S1024x1 .f32) (x3 : Vec F S1x1024 .f32) (x4 : Vec F S1024x1 .i32) (x5 : Vec F S1x1024 .i32) (xs0 xs1 : Vec F S1024x1 .f32) :
    sout0_B_0 c i arg2 harg2 arg3 harg3 arg4 harg4 arg5 harg5 arg6 harg6 arg7 harg7 arg8 harg8 arg9 harg9 arg10 harg10 hc0 hc1 x0 x1 x2 x3 x4 x5 xs0 xs1 = k0_pay2 (k0_pay9 x0 x1 x2 x3 x4 x5) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg9.read_unread, harg10.read_unread, View.ld_unit_zero (S := S1024x1) hz, View.ld_unit_zero (S := S1024x512) hz, View.ld_unit_zero (S := S1x1024) hz]

/-- A middle column block: the denominator so far plus this block's (row sums − masked row sums). -/
theorem sout_B_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i) (x0 : Vec F S1024x512 .bf16) (x1 : Vec F S1024x512 .bf16) (x2 : Vec F S1024x1 .f32) (x3 : Vec F S1x1024 .f32) (x4 : Vec F S1024x1 .i32) (x5 : Vec F S1x1024 .i32) (xs0 xs1 : Vec F S1024x1 .f32) :
    sout0_B_1 c i arg2 harg2 arg3 harg3 arg4 harg4 arg5 harg5 arg6 harg6 arg7 harg7 arg8 harg8 arg9 harg9 arg10 harg10 hc0 hc1 x0 x1 x2 x3 x4 x5 xs0 xs1 = k0_pay3 (k0_pay8 x0 x1 x2 x3) (k0_pay9 x0 x1 x2 x3 x4 x5) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg9.read_unread, harg10.read_unread, View.ld_unit_zero (S := S1024x1) hz, View.ld_unit_zero (S := S1024x512) hz, View.ld_unit_zero (S := S1x1024) hz]

/-- The last column block updates the numerator as a middle block does. -/
theorem sout_C_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i) (x0 : Vec F S1024x512 .bf16) (x1 : Vec F S1024x512 .bf16) (x2 : Vec F S1024x1 .f32) (x3 : Vec F S1x1024 .f32) (x4 : Vec F S1024x1 .i32) (x5 : Vec F S1x1024 .i32) (xs0 xs1 : Vec F S1024x1 .f32) :
    sout0_C_0 c i arg2 harg2 arg3 harg3 arg4 harg4 arg5 harg5 arg6 harg6 arg7 harg7 arg8 harg8 arg9 harg9 arg10 harg10 hc0 hc1 x0 x1 x2 x3 x4 x5 xs0 xs1 = k0_pay2 (k0_pay9 x0 x1 x2 x3 x4 x5) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg9.read_unread, harg10.read_unread, View.ld_unit_zero (S := S1024x1) hz, View.ld_unit_zero (S := S1024x512) hz, View.ld_unit_zero (S := S1x1024) hz]

/-- The last column block updates the denominator as a middle block does. -/
theorem sout_C_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i) (x0 : Vec F S1024x512 .bf16) (x1 : Vec F S1024x512 .bf16) (x2 : Vec F S1024x1 .f32) (x3 : Vec F S1x1024 .f32) (x4 : Vec F S1024x1 .i32) (x5 : Vec F S1x1024 .i32) (xs0 xs1 : Vec F S1024x1 .f32) :
    sout0_C_1 c i arg2 harg2 arg3 harg3 arg4 harg4 arg5 harg5 arg6 harg6 arg7 harg7 arg8 harg8 arg9 harg9 arg10 harg10 hc0 hc1 x0 x1 x2 x3 x4 x5 xs0 xs1 = k0_pay3 (k0_pay8 x0 x1 x2 x3) (k0_pay9 x0 x1 x2 x3 x4 x5) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg9.read_unread, harg10.read_unread, View.ld_unit_zero (S := S1024x1) hz, View.ld_unit_zero (S := S1024x512) hz, View.ld_unit_zero (S := S1x1024) hz]

/-- The last column block stores the row losses of the two updated running vectors. -/
theorem out_C_6 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i) (x0 : Vec F S1024x512 .bf16) (x1 : Vec F S1024x512 .bf16) (x2 : Vec F S1024x1 .f32) (x3 : Vec F S1x1024 .f32) (x4 : Vec F S1024x1 .i32) (x5 : Vec F S1x1024 .i32) (xs0 xs1 : Vec F S1024x1 .f32) :
    out0_C_6 c i arg2 harg2 arg3 harg3 arg4 harg4 arg5 harg5 arg6 harg6 arg7 harg7 arg8 harg8 arg9 harg9 arg10 harg10 hc0 hc1 x0 x1 x2 x3 x4 x5 xs0 xs1
      = k0_pay4 (k0_pay2 (k0_pay9 x0 x1 x2 x3 x4 x5) xs0) (k0_pay3 (k0_pay8 x0 x1 x2 x3) (k0_pay9 x0 x1 x2 x3 x4 x5) xs1) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readCov_unit_zero (S := S1024x1) _ hz]
  simp only [View.readAt_eq_ld, harg2.read_unread, harg3.read_unread, harg4.read_unread, harg5.read_unread, harg6.read_unread, harg7.read_unread, harg9.read_unread, harg10.read_unread, View.ld_unit_zero (S := S1024x1) hz, View.ld_unit_zero (S := S1024x512) hz, View.ld_unit_zero (S := S1x1024) hz]

/-- The first column block: zero, then this block's masked row sums added. -/
theorem sout_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i) (x0 : Vec F S1024x512 .bf16) (x1 : Vec F S1024x512 .bf16) (x2 : Vec F S1024x1 .f32) (x3 : Vec F S1x1024 .f32) (x4 : Vec F S1024x1 .i32) (x5 : Vec F S1x1024 .i32) :
    sout0_A_0 c i arg2 harg2 arg3 harg3 arg4 harg4 arg5 harg5 arg6 harg6 arg7 harg7 arg8 harg8 arg9 harg9 arg10 harg10 hc0 hc1 x0 x1 x2 x3 x4 x5 = k0_pay2 (k0_pay9 x0 x1 x2 x3 x4 x5) (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg9.read_unread, harg10.read_unread, View.ld_unit_zero (S := S1024x1) hz, View.ld_unit_zero (S := S1024x512) hz, View.ld_unit_zero (S := S1x1024) hz]

/-- The first column block: zero, then this block's (row sums − masked row sums) added. -/
theorem sout_A_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i) (x0 : Vec F S1024x512 .bf16) (x1 : Vec F S1024x512 .bf16) (x2 : Vec F S1024x1 .f32) (x3 : Vec F S1x1024 .f32) (x4 : Vec F S1024x1 .i32) (x5 : Vec F S1x1024 .i32) :
    sout0_A_1 c i arg2 harg2 arg3 harg3 arg4 harg4 arg5 harg5 arg6 harg6 arg7 harg7 arg8 harg8 arg9 harg9 arg10 harg10 hc0 hc1 x0 x1 x2 x3 x4 x5 = k0_pay3 (k0_pay8 x0 x1 x2 x3) (k0_pay9 x0 x1 x2 x3 x4 x5) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg9.read_unread, harg10.read_unread, View.ld_unit_zero (S := S1024x1) hz, View.ld_unit_zero (S := S1024x512) hz, View.ld_unit_zero (S := S1x1024) hz]

end Cert.KernelIdeal.Pieces

end
-- ==== Proof.LibDotSingle.lean ====
/-
  A matrix product with ONE contracted axis, read at an index of the result, over the extended reals.

  Whatever the ranks of the operands and whichever axes are contracted, once the contracted axis has extent `K` and the
  operand indices at the `k`-th contraction coordinate are known (`li k`, `ri k`), the product into a zero accumulator
  is the finite sum `∑ k, x (li k) * w (ri k)`: the accumulator contributes `0`, and the one-axis contraction index is
  its coordinate.
-/
import Idealize.ShloMosaic.Lib.ValueIdx
import Idealize.ShloMosaic.PureOps.Ideal.Laws

namespace Cert.LibDotSingle

open Idealize.ShloMosaic Idealize.ShloMosaic.ValueIdx

/-- A `tpu.matmul` into the zero accumulator whose dimension numbers contract one axis of extent `K`, at the result
    index `j`, is the sum over `k : Fin K` of the left operand at `li k` times the right operand at `ri k`, where
    `li`, `ri` name the operand indices the dimension numbers give at contraction coordinate `k`. -/
theorem matmul_zero_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    matmul d prec x w (constant (F := Ideal) so .f32 0x00000000#32) j = ∑ k : Fin K, x (li k) * w (ri k) := by
  refine (Ideal.matmul_constant_zero_apply d prec x w j).trans ?_
  refine (Equiv.sum_comp (contrEquiv1 d K hr hs).symm _).symm.trans ?_
  exact Finset.sum_congr rfl fun k _ => by rw [hl k, hri k]

end Cert.LibDotSingle
-- ==== Proof.LibKeepdims.lean ====
/-
  A vector kept as a column: the two layout operations a reduction with kept dimensions prints, read at an index
  given by coordinates.

  A row reduction of an `[a, b]` matrix leaves a vector of length `a`; to set it against the matrix again it is cast
  to the column `[a, 1]` and that column is broadcast along the rows to `[a, b]`. At `(i, j)` the result is the
  vector's entry `i`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- A vector of length `a` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector cast to a column and broadcast along the rows reads, at `(i, j)`, the vector at `i`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) :=
  (broadcastTo_a1_ab_apply _ h' i j).trans (shapeCast_a_a1_apply x h i 0)

end Cert.LibKeepdims
-- ==== Proof.KPay.lean ====
/-
  The kernel body's arithmetic read entry by entry over the extended reals.

  The body forms a 1024 × 1024 tile of similarities from a block of left rows and a block of right rows (their inner
  products by one matrix product, their squared norms from a column and a row), sums the tile along its rows, sums it
  again masked to the pairs of equal group label, and updates a numerator column and a denominator column; at the last
  column block it turns the two columns into row losses.
-/
import proofs.«112421_j4183298146522_2_alg».proof.Proof.Gen.KernelIdeal.Skeleton
import proofs.«112421_j4183298146522_2_alg».proof.Proof.Spec
import proofs.«112421_j4183298146522_2_alg».proof.Proof.LibDotSingle
import proofs.«112421_j4183298146522_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Pay

open Cert.KernelIdeal Cert.KernelIdeal.Gen Cert.SimLoss

/-- The similarity of row `p` of the left block and row `q` of the right block, from the blocks' entries, the left
    rows' squared norms (a column) and the right rows' squared norms (a row). -/
def simAt (x0 x1 : FVec Ideal S1024x512 .bf16) (x2 : FVec Ideal S1024x1 .f32) (x3 : FVec Ideal S1x1024 .f32) (p q : Fin 1024) : EReal :=
  Ideal.exp (0 - Ideal.sqrt (max (x2 (ix2 p 0) + x3 (ix2 0 q) - two * ∑ k : Fin 512, x0 (ix2 p k) * x1 (ix2 q k)) 0))

/-- The product contracts the second axis of both blocks: at result `(p, q)` the left index is `(p, k)` … -/
theorem lhs_0 (i : S1024x1024.Idx) (c : dot_S1024x512_S1024x512_S1024x1024_1_1_0_0_n_n.contr.Idx) :
    (dot_S1024x512_S1024x512_S1024x1024_1_1_0_0_n_n.lhsIdx i c 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_1 (i : S1024x1024.Idx) (c : dot_S1024x512_S1024x512_S1024x1024_1_1_0_0_n_n.contr.Idx) :
    (dot_S1024x512_S1024x512_S1024x1024_1_1_0_0_n_n.lhsIdx i c 1).val = (c ⟨0, by decide⟩).val :=
  dot_S1024x512_S1024x512_S1024x1024_1_1_0_0_n_n.lhsIdx_val_of_single rfl i c
/-- … and the right index is `(q, k)`. -/
theorem rhs_0 (i : S1024x1024.Idx) (c : dot_S1024x512_S1024x512_S1024x1024_1_1_0_0_n_n.contr.Idx) :
    (dot_S1024x512_S1024x512_S1024x1024_1_1_0_0_n_n.rhsIdx i c 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_1 (i : S1024x1024.Idx) (c : dot_S1024x512_S1024x512_S1024x1024_1_1_0_0_n_n.contr.Idx) :
    (dot_S1024x512_S1024x512_S1024x1024_1_1_0_0_n_n.rhsIdx i c 1).val = (c ⟨0, by decide⟩).val :=
  dot_S1024x512_S1024x512_S1024x1024_1_1_0_0_n_n.rhsIdx_val_of_single rfl i c

/-- The matrix product of the two blocks into the zero accumulator, at `(p, q)`: the inner product of row `p` of the
    left block and row `q` of the right block. -/
theorem dot_apply (x0 x1 : FVec Ideal S1024x512 .bf16) (p q : Fin 1024) :
    matmul dot_S1024x512_S1024x512_S1024x1024_1_1_0_0_n_n none x0 x1 (constant (F := Ideal) S1024x1024 .f32 0x00000000#32) (ix2 p q)
      = ∑ k : Fin 512, x0 (ix2 p k) * x1 (ix2 q k) := by
  refine Cert.LibDotSingle.matmul_zero_apply dot_S1024x512_S1024x512_S1024x1024_1_1_0_0_n_n 512 rfl rfl none x0 x1 (ix2 p q)
    (fun k => ix2 p k) (fun k => ix2 q k) (fun k => ?_) (fun k => ?_)
  · have hk := contrEquiv1_symm_val dot_S1024x512_S1024x512_S1024x1024_1_1_0_0_n_n 512 rfl rfl k
    refine funext fun a => Fin.ext ?_
    match a with
    | ⟨0, _⟩ => exact lhs_0 _ _
    | ⟨1, _⟩ => exact (lhs_1 _ _).trans hk
  · have hk := contrEquiv1_symm_val dot_S1024x512_S1024x512_S1024x1024_1_1_0_0_n_n 512 rfl rfl k
    refine funext fun a => Fin.ext ?_
    match a with
    | ⟨0, _⟩ => exact rhs_0 _ _
    | ⟨1, _⟩ => exact (rhs_1 _ _).trans hk

/-- The body's similarity tile at `(p, q)`. -/
theorem pay7_apply (x0 x1 : FVec Ideal S1024x512 .bf16) (x2 : FVec Ideal S1024x1 .f32) (x3 : FVec Ideal S1x1024 .f32) (p q : Fin 1024) :
    k0_pay7 (F := Ideal) x0 x1 x2 x3 (ix2 p q) = simAt x0 x1 x2 x3 p q := by
  unfold k0_pay7 simAt
  have e1 : broadcastTo S1024x1024 (shapeCast S1024x1 x2 shapeCasts_S1024x1_S1024x1) broadcasts_S1024x1_S1024x1024 (ix2 p q) = x2 (ix2 p 0) := by
    rw [shapeCast_self]; exact Cert.LibKeepdims.broadcastTo_a1_ab_apply x2 _ p q
  have e2 : broadcastTo S1024x1024 (shapeCast S1x1024 x3 shapeCasts_S1x1024_S1x1024) broadcasts_S1x1024_S1024x1024 (ix2 p q) = x3 (ix2 0 q) := by
    rw [shapeCast_self]; exact broadcastTo_1b_ab_apply x3 _ p q
  have e3 : matmul dot_S1024x512_S1024x512_S1024x1024_1_1_0_0_n_n none (shapeCast S1024x512 x0 shapeCasts_S1024x512_S1024x512) (shapeCast S1024x512 x1 shapeCasts_S1024x512_S1024x512) (constant (F := Ideal) S1024x1024 .f32 0x00000000#32) (ix2 p q)
      = ∑ k : Fin 512, x0 (ix2 p k) * x1 (ix2 q k) := by
    rw [shapeCast_self, shapeCast_self]; exact dot_apply x0 x1 p q
  show Ideal.exp (Ideal.ofBits .f32 0x00000000#32 - Ideal.sqrt (max ((_ + _) - Ideal.ofBits .f32 0x40000000#32 * _) (Ideal.ofBits .f32 0x00000000#32))) = _
  rw [e1, e2, e3, Ideal.ofBits_zero_f32]

/-- A sum along the rows of a 1024 × 1024 tile, at row `p`. -/
theorem rowsum_apply (v : FVec Ideal S1024x1024 .f32) (p : Fin 1024) :
    multiReduction .add [1] S1024 v 0x00000000#32 reduces_S1024x1024_S1024 (.inl rfl) rfl (ix1 p) = ∑ q : Fin 1024, v (ix2 p q) := by
  refine (Ideal.multiReduction_add_single v 0x00000000#32 reduces_S1024x1024_S1024 (.inl rfl) rfl (ix1 p)).trans ?_
  refine Finset.sum_congr rfl fun q _ => congrArg v (funext fun a => Fin.ext ?_)
  match a with
  | ⟨0, _⟩ => rfl
  | ⟨1, _⟩ => rfl

/-- The tile's row sums, kept as a column: row `p`'s sum of similarities over this column block. -/
theorem pay8_apply (x0 x1 : FVec Ideal S1024x512 .bf16) (x2 : FVec Ideal S1024x1 .f32) (x3 : FVec Ideal S1x1024 .f32) (p : Fin 1024) (u : Fin 1) :
    k0_pay8 (F := Ideal) x0 x1 x2 x3 (ix2 p u) = ∑ q : Fin 1024, simAt x0 x1 x2 x3 p q := by
  unfold k0_pay8
  refine (Cert.LibKeepdims.shapeCast_a_a1_apply _ shapeCasts_S1024_S1024x1 p u).trans ?_
  refine (rowsum_apply _ p).trans ?_
  exact Finset.sum_congr rfl fun q _ => pay7_apply x0 x1 x2 x3 p q

/-- The tile masked to the pairs of equal group label, summed along the rows: row `p`'s part of the numerator. -/
theorem pay9_apply (x0 x1 : FVec Ideal S1024x512 .bf16) (x2 : FVec Ideal S1024x1 .f32) (x3 : FVec Ideal S1x1024 .f32)
    (x4 : Vec Ideal S1024x1 .i32) (x5 : Vec Ideal S1x1024 .i32) (p : Fin 1024) :
    k0_pay9 (F := Ideal) x0 x1 x2 x3 x4 x5 (ix1 p)
      = ∑ q : Fin 1024, Scalar.select (IntOp.cmpi .eq (x4 (ix2 p (0 : Fin 1))) (x5 (ix2 (0 : Fin 1) q))) (simAt x0 x1 x2 x3 p q) 0 := by
  unfold k0_pay9
  refine (rowsum_apply _ p).trans ?_
  refine Finset.sum_congr rfl fun q _ => ?_
  have e4 : broadcastTo S1024x1024 (shapeCast S1024x1 x4 shapeCasts_S1024x1_S1024x1) broadcasts_S1024x1_S1024x1024 (ix2 p q) = x4 (ix2 p 0) := by
    rw [shapeCast_self]; exact Cert.LibKeepdims.broadcastTo_a1_ab_apply x4 _ p q
  have e5 : broadcastTo S1024x1024 (shapeCast S1x1024 x5 shapeCasts_S1x1024_S1x1024) broadcasts_S1x1024_S1024x1024 (ix2 p q) = x5 (ix2 0 q) := by
    rw [shapeCast_self]; exact broadcastTo_1b_ab_apply x5 _ p q
  show Scalar.select (IntOp.cmpi .eq _ _) (k0_pay7 (F := Ideal) x0 x1 x2 x3 (ix2 p q)) (Ideal.ofBits .f32 0x00000000#32) = _
  rw [e4, e5, pay7_apply, Ideal.ofBits_zero_f32]

/-- A length-1024 vector kept as a column. -/
theorem pay1_apply (v35 : FVec Ideal S1024 .f32) (p : Fin 1024) (u : Fin 1) : k0_pay1 (F := Ideal) v35 (ix2 p u) = v35 (ix1 p) := by
  unfold k0_pay1
  exact Cert.LibKeepdims.shapeCast_a_a1_apply _ shapeCasts_S1024_S1024x1 p u

/-- The numerator's update: what was there plus this block's part. -/
theorem pay2_apply (v35 : FVec Ideal S1024 .f32) (v38 : FVec Ideal S1024x1 .f32) (p : Fin 1024) (u : Fin 1) :
    k0_pay2 (F := Ideal) v35 v38 (ix2 p u) = v38 (ix2 p u) + v35 (ix1 p) := by
  unfold k0_pay2
  rw [shapeCast_self]
  show v38 (ix2 p u) + k0_pay1 (F := Ideal) v35 (ix2 p u) = _
  rw [pay1_apply]

/-- The denominator's update: what was there plus (this block's row sum − this block's numerator part). -/
theorem pay3_apply (v32 : FVec Ideal S1024x1 .f32) (v35 : FVec Ideal S1024 .f32) (v43 : FVec Ideal S1024x1 .f32) (p : Fin 1024) (u : Fin 1) :
    k0_pay3 (F := Ideal) v32 v35 v43 (ix2 p u) = v43 (ix2 p u) + (v32 (ix2 p u) - v35 (ix1 p)) := by
  unfold k0_pay3
  rw [shapeCast_self]
  show v43 (ix2 p u) + (v32 (ix2 p u) - k0_pay1 (F := Ideal) v35 (ix2 p u)) = _
  rw [pay1_apply]

/-- The row losses, entry by entry, of a numerator column and a denominator column. -/
theorem pay4_apply (v51 v52 : FVec Ideal S1024x1 .f32) (y : S1024x1.Idx) :
    k0_pay4 (F := Ideal) v51 v52 y = lossK (v51 y) (v52 y) := by
  unfold k0_pay4 lossK ratio valid
  show Scalar.select (IntOp.andi (Ideal.cmp .ogt (v51 y) (Ideal.ofBits .f32 0x00000000#32)) (Ideal.cmp .ogt (v52 y) (Ideal.ofBits .f32 0x00000000#32)))
    (Ideal.ofBits .f32 0x00000000#32 - Ideal.log (Scalar.select (IntOp.andi (Ideal.cmp .ogt (v51 y) (Ideal.ofBits .f32 0x00000000#32)) (Ideal.cmp .ogt (v52 y) (Ideal.ofBits .f32 0x00000000#32))) (Ideal.div (v51 y) (Scalar.select (IntOp.andi (Ideal.cmp .ogt (v51 y) (Ideal.ofBits .f32 0x00000000#32)) (Ideal.cmp .ogt (v52 y) (Ideal.ofBits .f32 0x00000000#32))) (v52 y) one)) one)) (Ideal.ofBits .f32 0x00000000#32) = _
  rw [Ideal.ofBits_zero_f32]

/-- The two zero columns a row block starts from. -/
theorem pay5_apply (y : S1024x1.Idx) : k0_pay5 (F := Ideal) y = 0 := by
  unfold k0_pay5
  rw [shapeCast_self]
  exact Ideal.ofBits_zero_f32
theorem pay6_apply (y : S1024x1.Idx) : k0_pay6 (F := Ideal) y = 0 := by
  unfold k0_pay6
  rw [shapeCast_self]
  exact Ideal.ofBits_zero_f32

end Cert.KernelIdeal.Pay

end
-- ==== Proof.KStep.lean ====
/-
  One column block's step of the two running columns, stated for blocks whose entries are known.

  If the left block's row `p` is row `r` of the left matrix, the right block is column block `s` of the right matrix,
  the norm column and norm row and the two label blocks agree with them, and the numerator column holds at `p` the sum of
  the first `s` blocks' parts, then after the body's update it holds the sum of the first `s + 1` blocks' parts; likewise
  for the denominator column.
-/
import proofs.«112421_j4183298146522_2_alg».proof.Proof.KPay

noncomputable section

open Idealize.ShloMosaic Idealize.ShloMosaic.ValueIdx

namespace Cert.KernelIdeal.Step

open Cert.KernelIdeal Cert.KernelIdeal.Gen Cert.KernelIdeal.Pay Cert.SimLoss

variable (x0 x1 : FVec Ideal S1024x512 .bf16) (x2 : FVec Ideal S1024x1 .f32) (x3 : FVec Ideal S1x1024 .f32)
  (x4 : Vec Ideal S1024x1 .i32) (x5 : Vec Ideal S1x1024 .i32)
  (Xm Ym : Mat) (g : Grp) (r : Fin 8192) (s : ℕ) (p : Fin 1024)

/-- The tile's entry `(p, q)` is the similarity of row `r` and column `q` of block `s`. -/
theorem simAt_eq (q : Fin 1024) (h0 : ∀ k, x0 (ix2 p k) = Xm r k) (h1 : ∀ k, x1 (ix2 q k) = Ym (col s q) k)
    (h2 : x2 (ix2 p (0 : Fin 1)) = nrm Xm r) (h3 : x3 (ix2 (0 : Fin 1) q) = nrm Ym (col s q)) :
    simAt x0 x1 x2 x3 p q = simK Xm Ym r (col s q) := by
  unfold simAt simK dotK
  rw [h2, h3]
  refine congrArg (fun d => Ideal.exp (0 - Ideal.sqrt (max (nrm Xm r + nrm Ym (col s q) - two * d) 0))) ?_
  exact Finset.sum_congr rfl fun k _ => by rw [h0 k, h1 k]

/-- Row `p`'s sum over the tile is block `s`'s part of row `r`'s sum of similarities. -/
theorem rowPart (u : Fin 1) (h0 : ∀ k, x0 (ix2 p k) = Xm r k) (h1 : ∀ q k, x1 (ix2 q k) = Ym (col s q) k)
    (h2 : x2 (ix2 p (0 : Fin 1)) = nrm Xm r) (h3 : ∀ q, x3 (ix2 (0 : Fin 1) q) = nrm Ym (col s q)) :
    k0_pay8 (F := Ideal) x0 x1 x2 x3 (ix2 p u) = cS Xm Ym r s := by
  rw [pay8_apply]
  unfold cS
  exact Finset.sum_congr rfl fun q _ => simAt_eq x0 x1 x2 x3 Xm Ym r s p q h0 (h1 q) h2 (h3 q)

/-- Row `p`'s masked sum over the tile is block `s`'s part of row `r`'s numerator. -/
theorem numPart (h0 : ∀ k, x0 (ix2 p k) = Xm r k) (h1 : ∀ q k, x1 (ix2 q k) = Ym (col s q) k)
    (h2 : x2 (ix2 p (0 : Fin 1)) = nrm Xm r) (h3 : ∀ q, x3 (ix2 (0 : Fin 1) q) = nrm Ym (col s q))
    (h4 : x4 (ix2 p (0 : Fin 1)) = g r) (h5 : ∀ q, x5 (ix2 (0 : Fin 1) q) = g (col s q)) :
    k0_pay9 (F := Ideal) x0 x1 x2 x3 x4 x5 (ix1 p) = cN Xm Ym g r s := by
  rw [pay9_apply]
  unfold cN same
  exact Finset.sum_congr rfl fun q _ => by
    rw [h4, h5 q, simAt_eq x0 x1 x2 x3 Xm Ym r s p q h0 (h1 q) h2 (h3 q)]

/-- The numerator column after the update. -/
theorem stepN (prev : FVec Ideal S1024x1 .f32) (u : Fin 1) (h0 : ∀ k, x0 (ix2 p k) = Xm r k) (h1 : ∀ q k, x1 (ix2 q k) = Ym (col s q) k)
    (h2 : x2 (ix2 p (0 : Fin 1)) = nrm Xm r) (h3 : ∀ q, x3 (ix2 (0 : Fin 1) q) = nrm Ym (col s q))
    (h4 : x4 (ix2 p (0 : Fin 1)) = g r) (h5 : ∀ q, x5 (ix2 (0 : Fin 1) q) = g (col s q))
    (hprev : prev (ix2 p u) = accN Xm Ym g r s) :
    k0_pay2 (F := Ideal) (k0_pay9 (F := Ideal) x0 x1 x2 x3 x4 x5) prev (ix2 p u) = accN Xm Ym g r (s + 1) := by
  rw [pay2_apply, numPart x0 x1 x2 x3 x4 x5 Xm Ym g r s p h0 h1 h2 h3 h4 h5, hprev]
  unfold accN
  rw [Finset.sum_range_succ]

/-- The denominator column after the update. -/
theorem stepD (prev : FVec Ideal S1024x1 .f32) (u : Fin 1) (h0 : ∀ k, x0 (ix2 p k) = Xm r k) (h1 : ∀ q k, x1 (ix2 q k) = Ym (col s q) k)
    (h2 : x2 (ix2 p (0 : Fin 1)) = nrm Xm r) (h3 : ∀ q, x3 (ix2 (0 : Fin 1) q) = nrm Ym (col s q))
    (h4 : x4 (ix2 p (0 : Fin 1)) = g r) (h5 : ∀ q, x5 (ix2 (0 : Fin 1) q) = g (col s q))
    (hprev : prev (ix2 p u) = accD Xm Ym g r s) :
    k0_pay3 (F := Ideal) (k0_pay8 (F := Ideal) x0 x1 x2 x3) (k0_pay9 (F := Ideal) x0 x1 x2 x3 x4 x5) prev (ix2 p u)
      = accD Xm Ym g r (s + 1) := by
  rw [pay3_apply, numPart x0 x1 x2 x3 x4 x5 Xm Ym g r s p h0 h1 h2 h3 h4 h5,
    rowPart x0 x1 x2 x3 Xm Ym r s p u h0 h1 h2 h3, hprev]
  unfold accD
  rw [Finset.sum_range_succ]

end Cert.KernelIdeal.Step

end
-- ==== Proof.KInv.lean ====
/-
  The two running columns, point by point, and the losses the last column block of each row block stores.

  By induction along the grid's row-major order: after point `t` (row block `t / 8`, column block `t % 8`) the numerator
  column holds, at in-block row `p`, the sum of the parts of column blocks `0 … t % 8` for the matrix row `p` stands
  for, and the denominator column likewise; a row block's first point starts both from zero.  At a row block's last
  point (`t % 8 = 7`) the stored losses are therefore those of the full numerators and denominators.
-/
import proofs.«112421_j4183298146522_2_alg».proof.Proof.KPieces
import proofs.«112421_j4183298146522_2_alg».proof.Proof.KStep
import proofs.«112421_j4183298146522_2_alg».proof.Proof.KDefs

noncomputable section

open Idealize.ShloMosaic Idealize.ShloMosaic.ValueIdx Idealize.ShloMosaic.TcCoe Idealize.SL.Sem

namespace Cert.KernelIdeal.Inv

open Cert.KernelIdeal Cert.KernelIdeal.Gen Cert.KernelIdeal.Pay Cert.KernelIdeal.Pieces Cert.KernelIdeal.Step
open Cert.KernelIdeal.K Cert.SimLoss

variable (m : (ℓ : Loc nD τ sig) → Buf (Elt Ideal) ℓ)

/-- What each input block at point `t` holds, entry by entry: rows `1024 (t / 8) + p` of the left matrix, of its
    squared norms and of the labels; rows `1024 (t % 8) + q` of the right matrix, of its squared norms and of the labels. -/
structure Reads : Prop where
  b0 : ∀ (c : Dev nD) (t : Fin cfg0.N) (p : Fin 1024) (k : Fin 512), (iblk m c 0 t : FVec Ideal S1024x512 .bf16) (ix2 p k) = X m c (row t p) k
  b1 : ∀ (c : Dev nD) (t : Fin cfg0.N) (q : Fin 1024) (k : Fin 512), (iblk m c 1 t : FVec Ideal S1024x512 .bf16) (ix2 q k) = Y m c (col (t.val % 8) q.val) k
  b2 : ∀ (c : Dev nD) (t : Fin cfg0.N) (p : Fin 1024), (iblk m c 2 t : FVec Ideal S1024x1 .f32) (ix2 p (0 : Fin 1)) = nrm (X m c) (row t p)
  b3 : ∀ (c : Dev nD) (t : Fin cfg0.N) (q : Fin 1024), (iblk m c 3 t : FVec Ideal S1x1024 .f32) (ix2 (0 : Fin 1) q) = nrm (Y m c) (col (t.val % 8) q.val)
  b4 : ∀ (c : Dev nD) (t : Fin cfg0.N) (p : Fin 1024), (iblk m c 4 t : Vec Ideal S1024x1 .i32) (ix2 p (0 : Fin 1)) = G m c (row t p)
  b5 : ∀ (c : Dev nD) (t : Fin cfg0.N) (q : Fin 1024), (iblk m c 5 t : Vec Ideal S1x1024 .i32) (ix2 (0 : Fin 1) q) = G m c (col (t.val % 8) q.val)

variable {m}

/-- The numerator column after point `t`'s update, from what it held before. -/
theorem updN (R : Reads m) (c : Dev nD) (t : Fin cfg0.N) (prev : FVec Ideal S1024x1 .f32)
    (hprev : ∀ y : S1024x1.Idx, prev y = accN (X m c) (Y m c) (G m c) (row t (y 0)) (t.val % 8)) :
    k0_pay2 (F := Ideal) (k0_pay9 (F := Ideal) (iblk m c 0 t) (iblk m c 1 t) (iblk m c 2 t) (iblk m c 3 t) (iblk m c 4 t) (iblk m c 5 t)) prev
      = fun y : S1024x1.Idx => accN (X m c) (Y m c) (G m c) (row t (y 0)) (t.val % 8 + 1) := by
  funext y
  obtain ⟨p, u, rfl⟩ : ∃ (p : Fin 1024) (u : Fin 1), y = ix2 p u := ⟨y 0, y 1, eq_ix2 y⟩
  exact stepN (iblk m c 0 t) (iblk m c 1 t) (iblk m c 2 t) (iblk m c 3 t) (iblk m c 4 t) (iblk m c 5 t) (X m c) (Y m c) (G m c) (row t p) (t.val % 8) p prev u
    (R.b0 c t p) (fun q k => R.b1 c t q k) (R.b2 c t p) (fun q => R.b3 c t q) (R.b4 c t p) (fun q => R.b5 c t q) (hprev (ix2 p u))

/-- The denominator column after point `t`'s update, from what it held before. -/
theorem updD (R : Reads m) (c : Dev nD) (t : Fin cfg0.N) (prev : FVec Ideal S1024x1 .f32)
    (hprev : ∀ y : S1024x1.Idx, prev y = accD (X m c) (Y m c) (G m c) (row t (y 0)) (t.val % 8)) :
    k0_pay3 (F := Ideal) (k0_pay8 (F := Ideal) (iblk m c 0 t) (iblk m c 1 t) (iblk m c 2 t) (iblk m c 3 t)) (k0_pay9 (F := Ideal) (iblk m c 0 t) (iblk m c 1 t) (iblk m c 2 t) (iblk m c 3 t) (iblk m c 4 t) (iblk m c 5 t)) prev
      = fun y : S1024x1.Idx => accD (X m c) (Y m c) (G m c) (row t (y 0)) (t.val % 8 + 1) := by
  funext y
  obtain ⟨p, u, rfl⟩ : ∃ (p : Fin 1024) (u : Fin 1), y = ix2 p u := ⟨y 0, y 1, eq_ix2 y⟩
  exact stepD (iblk m c 0 t) (iblk m c 1 t) (iblk m c 2 t) (iblk m c 3 t) (iblk m c 4 t) (iblk m c 5 t) (X m c) (Y m c) (G m c) (row t p) (t.val % 8) p prev u
    (R.b0 c t p) (fun q k => R.b1 c t q k) (R.b2 c t p) (fun q => R.b3 c t q) (R.b4 c t p) (fun q => R.b5 c t q) (hprev (ix2 p u))

/-- What point `t` leaves, given what the point before left when `t` is not a row block's first point. -/
theorem point (R : Reads m) (c : Dev nD) (t : Fin cfg0.N)
    (hp : ¬t.val % 8 = 0 →
      (outsAt0 m c (t.val - 1) (Nat.lt_of_le_of_lt (Nat.sub_le _ _) t.isLt)).2.1 = (fun y : S1024x1.Idx => accN (X m c) (Y m c) (G m c) (row t (y 0)) (t.val % 8))
      ∧ (outsAt0 m c (t.val - 1) (Nat.lt_of_le_of_lt (Nat.sub_le _ _) t.isLt)).2.2 = (fun y : S1024x1.Idx => accD (X m c) (Y m c) (G m c) (row t (y 0)) (t.val % 8))) :
    (outsAt0 m c t.val t.isLt).2.1 = (fun y : S1024x1.Idx => accN (X m c) (Y m c) (G m c) (row t (y 0)) (t.val % 8 + 1))
    ∧ (outsAt0 m c t.val t.isLt).2.2 = (fun y : S1024x1.Idx => accD (X m c) (Y m c) (G m c) (row t (y 0)) (t.val % 8 + 1))
    ∧ (t.val % 8 = 7 → (outsAt0 m c t.val t.isLt).1 = fun y : S1024x1.Idx => lossCol m c (ix2 (row t (y 0)) (0 : Fin 1))) := by
  by_cases h0 : t.val % 8 = 0
  · have h1 : ¬t.val % 8 = 7 := by omega
    rw [outsAt0_A m c t h0 h1]
    dsimp only
    rw [sout_A_0, sout_A_1]
    refine ⟨?_, ?_, fun h7 => absurd h7 h1⟩
    · refine updN R c t _ fun y => ?_
      rw [pay5_apply, h0]; unfold accN; rw [Finset.sum_range_zero]
    · refine updD R c t _ fun y => ?_
      rw [pay6_apply, h0]; unfold accD; rw [Finset.sum_range_zero]
  · obtain ⟨hpN, hpD⟩ := hp h0
    by_cases h1 : t.val % 8 = 7
    · rw [outsAt0_C m c t h0 h1]
      dsimp only
      rw [sout_C_0, sout_C_1, out_C_6, hpN, hpD]
      have eN := updN R c t (fun y : S1024x1.Idx => accN (X m c) (Y m c) (G m c) (row t (y 0)) (t.val % 8)) fun y => rfl
      have eD := updD R c t (fun y : S1024x1.Idx => accD (X m c) (Y m c) (G m c) (row t (y 0)) (t.val % 8)) fun y => rfl
      refine ⟨eN, eD, fun _ => ?_⟩
      funext y
      rw [pay4_apply, eN, eD, h1]
      rfl
    · rw [outsAt0_B m c t h0 h1]
      dsimp only
      rw [sout_B_0, sout_B_1, hpN, hpD]
      exact ⟨updN R c t _ fun y => rfl, updD R c t _ fun y => rfl, fun h7 => absurd h7 h1⟩

/-- The invariant at every point, by induction along the grid order. -/
theorem inv (R : Reads m) (c : Dev nD) : ∀ (n : ℕ) (h : n < cfg0.N),
    (outsAt0 m c n h).2.1 = (fun y : S1024x1.Idx => accN (X m c) (Y m c) (G m c) (row ⟨n, h⟩ (y 0)) (n % 8 + 1))
    ∧ (outsAt0 m c n h).2.2 = (fun y : S1024x1.Idx => accD (X m c) (Y m c) (G m c) (row ⟨n, h⟩ (y 0)) (n % 8 + 1))
    ∧ (n % 8 = 7 → (outsAt0 m c n h).1 = fun y : S1024x1.Idx => lossCol m c (ix2 (row ⟨n, h⟩ (y 0)) (0 : Fin 1)))
  | 0, h => point R c ⟨0, h⟩ fun h0 => absurd (Nat.zero_mod 8) h0
  | n + 1, h => point R c ⟨n + 1, h⟩ fun h0 => by
    have ih := inv R c n (Nat.lt_of_succ_lt h)
    have h0' : ¬(n + 1) % 8 = 0 := h0
    have hk : n % 8 + 1 = (n + 1) % 8 := by omega
    have hd : n / 8 = (n + 1) / 8 := by omega
    have hr : row ⟨n, Nat.lt_of_succ_lt h⟩ = row ⟨n + 1, h⟩ := funext fun p => by
      unfold row; exact Fin.ext (by show (1024 * (n / 8) + p.val) % 8192 = (1024 * ((n + 1) / 8) + p.val) % 8192; rw [hd])
    show (outsAt0 m c n _).2.1 = (fun y : S1024x1.Idx => accN (X m c) (Y m c) (G m c) (row ⟨n + 1, h⟩ (y 0)) ((n + 1) % 8))
      ∧ (outsAt0 m c n _).2.2 = (fun y : S1024x1.Idx => accD (X m c) (Y m c) (G m c) (row ⟨n + 1, h⟩ (y 0)) ((n + 1) % 8))
    rw [ih.1, ih.2.1]
    exact ⟨funext fun y => by rw [hr, hk], funext fun y => by rw [hr, hk]⟩

/-- At the last point of each row block the staged output is the rows' losses. -/
theorem out_last (R : Reads m) (c : Dev nD) (t : Fin cfg0.N) (h7 : t.val % 8 = 7) :
    (outsAt0 m c t.val t.isLt).1 = fun y : S1024x1.Idx => lossCol m c (ix2 (row t (y 0)) (0 : Fin 1)) :=
  (inv R c t.val t.isLt).2.2 h7

end Cert.KernelIdeal.Inv

end
-- ==== Proof.KFinal.lean ====
/-
  From the output's staging buffer after each last column block to the kernel program's result.

  The output is one column of 8192 row losses, written back in 8 blocks of 1024 rows: row block `b` is written back at
  the grid point `8 * b + 7`, the last column block of that row block, and at no other point.  Given that the staging
  buffer then holds the losses of the rows of block `b`, the array ends holding every row's loss; the program then
  sums the column from zero and divides by 8192, which is the mean of the row losses.
-/
import proofs.«112421_j4183298146522_2_alg».proof.Proof.KDefs
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.Final

open Cert.KernelIdeal Cert.KernelIdeal.Gen Cert.KernelIdeal.K Cert.SimLoss Idealize.ShloMosaic Idealize.ShloMosaic.ValueIdx Idealize.ShloMosaic.TcCoe Idealize.SL.Sem

variable (m : (ℓ : Loc nD τ sig) → Buf (Elt Ideal) ℓ) (ρ : Dev nD → PrngReg)

/-- Where the output's block sits at grid point `t`: block row `t / 8` of the one column. -/
theorem idx6 : ∀ t : Fin cfg0.N, win0_6.index t (0 : Fin 2) = t.val / 8 ∧ win0_6.index t (1 : Fin 2) = 0 :=
  (by decide +kernel : ∀ t : Fin grid0.N, _)

section
variable (hout : ∀ (c : Dev nD) (t : Fin cfg0.N), t.val % 8 = 7 → (outsAt0 m c t.val t.isLt).1 = fun y : S1024x1.Idx => lossCol m c (ix2 (row t (y 0)) (0 : Fin 1)))
include hout

/-- What a write-back writes is its block of the column of row losses: element `(p, 0)` of the block at point `t` is
    array row `1024 * (t / 8) + p`, which is `row t p`. -/
theorem flushed_eq (c : Dev nD) (t : Fin cfg0.N) (hf : (cfg0.win 6).flush t = true) :
    (dats m 0 c).flushed 6 t = ((cfg0.win 6).blk t).view.read (Elt Ideal) (lossCol m c) := by
  have h7 : t.val % 8 = 7 := (flush0_6 t).mp hf
  show (cfg0.win 6).cut (grid0.coords t) ((dats m 0 c).after 6 t) = _
  rw [after0_6, hout c t h7]
  funext y
  rw [View.read_apply]
  show lossCol m c (ix2 (row t ((win0_6.xinj (grid0.coords t) y) 0)) (0 : Fin 1)) = lossCol m c (((cfg0.win 6).blk t).view.emb y)
  refine congrArg (lossCol m c) (funext fun a => Fin.ext ?_)
  obtain ⟨e0, e1⟩ := idx6 t
  have hN : t.val < 64 := lt_of_lt_of_eq t.isLt (show cfg0.N = 64 from N_0)
  have hy0 : (y 0).val < 1024 := (y 0).isLt
  have hy1 : (y 1).val < 1 := (y 1).isLt
  match a with
  | ⟨0, _⟩ => show (1024 * (t.val / 8) + (y 0).val) % 8192 = win0_6.index t 0 * 1024 + 1 * (y 0).val; rw [e0]; omega
  | ⟨1, _⟩ => show 0 = win0_6.index t 1 * 1 + 1 * (y 1).val; rw [e1]; omega

/-- The output array after the last point is the column of row losses: array row `r` lies in the block written back at
    point `8 * (r / 1024) + 7`. -/
theorem final (c : Dev nD) : (dats m 0 c).arrAt 6 cfg0.N = lossCol m c :=
  (dats m 0 c).arrAt_eq_of_cover 6 (lossCol m c) (flushed_eq m hout c) fun i => by
    have hi0 : (i 0).val < 8192 := (i 0).isLt
    have hi1 : (i 1).val < 1 := (i 1).isLt
    have hN : cfg0.N = 64 := N_0
    have hlt : 8 * ((i 0).val / 1024) + 7 < cfg0.N := by omega
    obtain ⟨e0, e1⟩ := idx6 ⟨8 * ((i 0).val / 1024) + 7, hlt⟩
    refine ⟨⟨8 * ((i 0).val / 1024) + 7, hlt⟩, (flush0_6 _).mpr (by show (8 * ((i 0).val / 1024) + 7) % 8 = 7; omega), ?_⟩
    show i ∈ ((View.whole main_v10).slice (win0_6.rect ⟨8 * ((i 0).val / 1024) + 7, hlt⟩)).set
    rw [View.set_slice_whole, Rect.mem_set_unit]
    intro a
    match a with
    | ⟨0, _⟩ =>
      show win0_6.index ⟨8 * ((i 0).val / 1024) + 7, hlt⟩ 0 * 1024 ≤ (i 0).val
        ∧ (i 0).val < win0_6.index ⟨8 * ((i 0).val / 1024) + 7, hlt⟩ 0 * 1024 + 1024
      rw [e0]
      show (8 * ((i 0).val / 1024) + 7) / 8 * 1024 ≤ (i 0).val ∧ (i 0).val < (8 * ((i 0).val / 1024) + 7) / 8 * 1024 + 1024
      omega
    | ⟨1, _⟩ =>
      show win0_6.index ⟨8 * ((i 0).val / 1024) + 7, hlt⟩ 1 * 1 ≤ (i 1).val
        ∧ (i 1).val < win0_6.index ⟨8 * ((i 0).val / 1024) + 7, hlt⟩ 1 * 1 + 1
      rw [e1]; omega

/-- The program's result: zero plus the sum of the whole column, divided by 8192, is the mean of the row losses. -/
theorem tail_eq (c : Dev nD) :
    Pipeline.afterTail₀ cfgs (dats m) 0 (V0 m) [hostOps1] c main_v12 = fun _ => resultK (X m c) (Y m c) (G m c) := by
  unfold Pipeline.afterTail₀
  show StableHlo.after hostOps1 _ (Proc.devRef .tc main_v12) = _
  after_results
  have e : Pipeline.withArrays (cfgs 0).spec c (V0 m c) (fun w => (dats m 0 c).arrAt w (cfgs 0).N) (Proc.tc.devRef main_v10)
      = lossCol m c :=
    (Pipeline.withArrays_arr spec0 launch0.win.arr_inj c _ _ 6).trans (final m hout c)
  rw [e]
  funext i
  simp only [Host.divf, Host.reduceAdd, Ideal.hostDivf_def, Ideal.hostReduceAdd_def]
  rw [Ideal.hostReduceAdd_total reducesTo_S8192x1_S_d0_1 (fun b => b.elim0)]
  rw [constant_apply, constant_apply, Ideal.ofBits_zero_f32, zero_add, sum_idx2]
  unfold resultK total
  refine congrArg (fun s => Ideal.div s cnt) (Finset.sum_congr rfl fun r _ => ?_)
  rw [Fin.sum_univ_one]
  rfl
end

/-- The kernel program's run: it ends with its result at the mean of the row losses in the block-wise spelling, and
    its three arguments as launched. -/
theorem run_of_out (hout : ∀ (c : Dev nD) (t : Fin cfg0.N), t.val % 8 = 7 → (outsAt0 m c t.val t.isLt).1 = fun y : S1024x1.Idx => lossCol m c (ix2 (row t (y 0)) (0 : Fin 1))) :
    θ_run defs (onTc (τ := τ) (main (F := Ideal))) ⟨m, fun _ => 0, ρ⟩ (fun r => ∀ c : Dev nD,
      r.2.mem ((c.tc : Thread nD τ).loc main_v12) = (fun _ => resultK (X m c) (Y m c) (G m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v12 (Pipeline.mem_restRefs_of main_v12 (by decide) (by decide))).trans (tail_eq m hout c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Final

end
-- ==== Proof.lean ====
/-
  The kernel and its reference compute one number: the mean over 8192 rows of −log(numerator / denominator), where row
  i's numerator sums exp(−‖x_i − y_j‖) over the rows j of its own group and its denominator over the other groups, the
  distance taken from the expansion |x_i|² + |y_j|² − 2⟨x_i, y_j⟩ clamped at zero.

  The kernel walks an 8 × 8 grid of 1024 × 1024 tiles, row block by row block; within a row block it adds each column
  block's part to a numerator column and a denominator column (the latter as row sum minus numerator part) and, at the
  last column block, turns the two columns into losses; the mean is taken afterwards.  The reference forms the whole
  8192 × 8192 matrix at once.  Over the extended reals the two agree whenever the inputs are real numbers, which the
  precondition says: doubling commutes with the inner product, a clamped real has square root 0 exactly where the
  guarded form returns 0, the eight block sums re-associate into one sum, and a real row sum minus its masked part is
  the sum of the complementary part.

  The three programs' runs and unchanged arguments: the two kernel programs' are the generated ones; the reference's is
  its generated run with the result dropped.  The idealization rewrote nothing.
-/
import proofs.«112421_j4183298146522_2_alg».proof.Defs
import proofs.«112421_j4183298146522_2_alg».proof.Proof.Gen.Kernel
import proofs.«112421_j4183298146522_2_alg».proof.Proof.Gen.Kernel.Skeleton
import proofs.«112421_j4183298146522_2_alg».proof.Proof.Gen.Kernel.Launch
import proofs.«112421_j4183298146522_2_alg».proof.Proof.Gen.Kernel.Points
import proofs.«112421_j4183298146522_2_alg».proof.Proof.Gen.Kernel.Frame
import proofs.«112421_j4183298146522_2_alg».proof.Proof.Gen.KernelIdeal
import proofs.«112421_j4183298146522_2_alg».proof.Proof.Gen.KernelIdeal.Skeleton
import proofs.«112421_j4183298146522_2_alg».proof.Proof.Gen.KernelIdeal.Launch
import proofs.«112421_j4183298146522_2_alg».proof.Proof.Gen.KernelIdeal.Points
import proofs.«112421_j4183298146522_2_alg».proof.Proof.Gen.KernelIdeal.Frame
import proofs.«112421_j4183298146522_2_alg».proof.Proof.Gen.ReferenceIdeal
import proofs.«112421_j4183298146522_2_alg».proof.Proof.Gen.Pre_finite_inputs
import proofs.«112421_j4183298146522_2_alg».proof.Proof.Gen.ReferenceIdeal.Run
import proofs.«112421_j4183298146522_2_alg».proof.Proof.Gen.ReferenceIdeal.Read
import proofs.«112421_j4183298146522_2_alg».proof.Proof.SpecAlgebra
import proofs.«112421_j4183298146522_2_alg».proof.Proof.RefRead
import proofs.«112421_j4183298146522_2_alg».proof.Proof.FiniteInputs
import proofs.«112421_j4183298146522_2_alg».proof.Proof.KBlocks
import proofs.«112421_j4183298146522_2_alg».proof.Proof.KInv
import proofs.«112421_j4183298146522_2_alg».proof.Proof.KFinal
import Idealize.ShloMosaic.Adequacy
import Idealize.ShloMosaic.Init

noncomputable section

namespace Cert.Proof

open Idealize.ShloMosaic Idealize.ShloMosaic.TcCoe Idealize.ShloMosaic.ValueIdx Idealize.SL.Sem
open Cert.SimLoss Cert.KernelIdeal.K

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From arguments that agree and are real numbers, both programs end at the mean loss: the kernel at its block-wise
    spelling, the reference at its direct spelling, and the two spellings are equal. -/
theorem algebraic : Cert.algebraic_KernelIdeal_ReferenceIdeal := by
  intro m ρ m' ρ' hpre hagree
  have R : Cert.KernelIdeal.Inv.Reads m :=
    ⟨Cert.KernelIdeal.Blocks.blk0 m, Cert.KernelIdeal.Blocks.blk1 m, Cert.KernelIdeal.Blocks.blk2 m,
      Cert.KernelIdeal.Blocks.blk3 m, Cert.KernelIdeal.Blocks.blk4 m, Cert.KernelIdeal.Blocks.blk5 m⟩
  refine ⟨fun c => fun _ => resultK (X m c) (Y m c) (G m c),
    Cert.KernelIdeal.Final.run_of_out m ρ (fun c t h7 => Cert.KernelIdeal.Inv.out_last R c t h7), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, (hagree c).1, (hagree c).2.1, (hagree c).2.2]
  funext i
  rw [Cert.SimLoss.Ref.ref_eq]
  obtain ⟨hx, hy⟩ := Cert.SimLoss.Fin.real_of_pre _ _ _ (hpre c)
  exact (resultK_eq_resultR _ _ _ (fun i k => hx (ix2 i k)) (fun i k => hy (ix2 i k))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
